-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  reducesTo_S_S_d : S_.ReducesTo [] S_

variable [Facts]

def fn_part3 {F : FTy → Type} [FloatOps F] (main_arg12 : FVec F S_ .f32) (main_arg13 : FVec F S_ .f32) (main_v47 : IVec S_ 1) : IVec S_ 1 :=
  let main_v48 : FVec F S_ .f32 := Host.absf main_arg12
  let main_cst_22 : FVec F S_ .f32 := constant S_ .f32 0x7F800000#32
  let main_v49 : IVec S_ 1 := cmpf .olt main_v48 main_cst_22
  let main_c_23 : IVec S_ 1 := constantI S_ 1 1#1
  let main_v50 : IVec S_ 1 := (fun x v => Host.reduce IntOp.andi x v reducesTo_S_S_d h_S_) main_v49 main_c_23
  let main_v51 : IVec S_ 1 := andi main_v47 main_v50
  let main_v52 : FVec F S_ .f32 := Host.absf main_arg13
  let main_cst_24 : FVec F S_ .f32 := constant S_ .f32 0x7F800000#32
  let main_v53 : IVec S_ 1 := cmpf .olt main_v52 main_cst_24
  let main_c_25 : IVec S_ 1 := constantI S_ 1 1#1
  let main_v54 : IVec S_ 1 := (fun x v => Host.reduce IntOp.andi x v reducesTo_S_S_d h_S_) main_v53 main_c_25
  let main_v55 : IVec S_ 1 := andi main_v51 main_v54
  main_v55

def fn_part2 {F : FTy → Type} [FloatOps F] (main_arg8 : FVec F S_ .f32) (main_arg9 : FVec F S_ .f32) (main_arg10 : FVec F S_ .f32) (main_arg11 : FVec F S_ .f32) (main_arg12 : FVec F S_ .f32) (main_arg13 : FVec F S_ .f32) (main_v31 : IVec S_ 1) : IVec S_ 1 :=
  let main_v32 : FVec F S_ .f32 := Host.absf main_arg8
  let main_cst_14 : FVec F S_ .f32 := constant S_ .f32 0x7F800000#32
  let main_v33 : IVec S_ 1 := cmpf .olt main_v32 main_cst_14
  let main_c_15 : IVec S_ 1 := constantI S_ 1 1#1
  let main_v34 : IVec S_ 1 := (fun x v => Host.reduce IntOp.andi x v reducesTo_S_S_d h_S_) main_v33 main_c_15
  let main_v35 : IVec S_ 1 := andi main_v31 main_v34
  let main_v36 : FVec F S_ .f32 := Host.absf main_arg9
  let main_cst_16 : FVec F S_ .f32 := constant S_ .f32 0x7F800000#32
  let main_v37 : IVec S_ 1 := cmpf .olt main_v36 main_cst_16
  let main_c_17 : IVec S_ 1 := constantI S_ 1 1#1
  let main_v38 : IVec S_ 1 := (fun x v => Host.reduce IntOp.andi x v reducesTo_S_S_d h_S_) main_v37 main_c_17
  let main_v39 : IVec S_ 1 := andi main_v35 main_v38
  let main_v40 : FVec F S_ .f32 := Host.absf main_arg10
  let main_cst_18 : FVec F S_ .f32 := constant S_ .f32 0x7F800000#32
  let main_v41 : IVec S_ 1 := cmpf .olt main_v40 main_cst_18
  let main_c_19 : IVec S_ 1 := constantI S_ 1 1#1
  let main_v42 : IVec S_ 1 := (fun x v => Host.reduce IntOp.andi x v reducesTo_S_S_d h_S_) main_v41 main_c_19
  let main_v43 : IVec S_ 1 := andi main_v39 main_v42
  let main_v44 : FVec F S_ .f32 := Host.absf main_arg11
  let main_cst_20 : FVec F S_ .f32 := constant S_ .f32 0x7F800000#32
  let main_v45 : IVec S_ 1 := cmpf .olt main_v44 main_cst_20
  let main_c_21 : IVec S_ 1 := constantI S_ 1 1#1
  let main_v46 : IVec S_ 1 := (fun x v => Host.reduce IntOp.andi x v reducesTo_S_S_d h_S_) main_v45 main_c_21
  let main_v47 : IVec S_ 1 := andi main_v43 main_v46
  fn_part3 (F := F) main_arg12 main_arg13 main_v47

def fn_part1 {F : FTy → Type} [FloatOps F] (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_arg12 : FVec F S_ .f32) (main_arg13 : FVec F S_ .f32) (main_v15 : IVec S_ 1) : IVec S_ 1 :=
  let main_v16 : FVec F S_ .f32 := Host.absf main_arg4
  let main_cst_6 : FVec F S_ .f32 := constant S_ .f32 0x7F800000#32
  let main_v17 : IVec S_ 1 := cmpf .olt main_v16 main_cst_6
  let main_c_7 : IVec S_ 1 := constantI S_ 1 1#1
  let main_v18 : IVec S_ 1 := (fun x v => Host.reduce IntOp.andi x v reducesTo_S_S_d h_S_) main_v17 main_c_7
  let main_v19 : IVec S_ 1 := andi main_v15 main_v18
  let main_v20 : FVec F S_ .f32 := Host.absf main_arg5
  let main_cst_8 : FVec F S_ .f32 := constant S_ .f32 0x7F800000#32
  let main_v21 : IVec S_ 1 := cmpf .olt main_v20 main_cst_8
  let main_c_9 : IVec S_ 1 := constantI S_ 1 1#1
  let main_v22 : IVec S_ 1 := (fun x v => Host.reduce IntOp.andi x v reducesTo_S_S_d h_S_) main_v21 main_c_9
  let main_v23 : IVec S_ 1 := andi main_v19 main_v22
  let main_v24 : FVec F S_ .f32 := Host.absf main_arg6
  let main_cst_10 : FVec F S_ .f32 := constant S_ .f32 0x7F800000#32
  let main_v25 : IVec S_ 1 := cmpf .olt main_v24 main_cst_10
  let main_c_11 : IVec S_ 1 := constantI S_ 1 1#1
  let main_v26 : IVec S_ 1 := (fun x v => Host.reduce IntOp.andi x v reducesTo_S_S_d h_S_) main_v25 main_c_11
  let main_v27 : IVec S_ 1 := andi main_v23 main_v26
  let main_v28 : FVec F S_ .f32 := Host.absf main_arg7
  let main_cst_12 : FVec F S_ .f32 := constant S_ .f32 0x7F800000#32
  let main_v29 : IVec S_ 1 := cmpf .olt main_v28 main_cst_12
  let main_c_13 : IVec S_ 1 := constantI S_ 1 1#1
  let main_v30 : IVec S_ 1 := (fun x v => Host.reduce IntOp.andi x v reducesTo_S_S_d h_S_) main_v29 main_c_13
  let main_v31 : IVec S_ 1 := andi main_v27 main_v30
  fn_part2 (F := F) main_arg8 main_arg9 main_arg10 main_arg11 main_arg12 main_arg13 main_v31

def fn {F : FTy → Type} [FloatOps F] (main_arg0 : FVec F S4000000 .f32) (main_arg1 : FVec F S_ .f32) (main_arg2 : FVec F S_ .f32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_arg12 : FVec F S_ .f32) (main_arg13 : FVec F S_ .f32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S_ .f32 := Host.absf main_arg3
  let main_cst_4 : FVec F S_ .f32 := constant S_ .f32 0x7F800000#32
  let main_v13 : IVec S_ 1 := cmpf .olt main_v12 main_cst_4
  let main_c_5 : IVec S_ 1 := constantI S_ 1 1#1
  let main_v14 : IVec S_ 1 := (fun x v => Host.reduce IntOp.andi x v reducesTo_S_S_d h_S_) main_v13 main_c_5
  let main_v15 : IVec S_ 1 := andi main_v11 main_v14
  fn_part1 (F := F) main_arg4 main_arg5 main_arg6 main_arg7 main_arg8 main_arg9 main_arg10 main_arg11 main_arg12 main_arg13 main_v15
-- ==== Kernel.lean ====
abbrev S4000000 : Shape := ⟨1, ![4000000]⟩
abbrev S_ : Shape := ⟨0, ![]⟩
abbrev S2x5x3125x128 : Shape := ⟨4, ![2, 5, 3125, 128]⟩
abbrev S2x1x1 : Shape := ⟨3, ![2, 1, 1]⟩
abbrev S1x1x3125x128 : Shape := ⟨4, ![1, 1, 3125, 128]⟩
abbrev S1x1x1 : Shape := ⟨3, ![1, 1, 1]⟩
abbrev S1x128 : Shape := ⟨2, ![1, 128]⟩
abbrev S3125x128 : Shape := ⟨2, ![3125, 128]⟩
abbrev S128 : Shape := ⟨1, ![128]⟩
abbrev S1 : Shape := ⟨1, ![1]⟩
abbrev S1x1 : Shape := ⟨2, ![1, 1]⟩
abbrev S3 : Shape := ⟨1, ![3]⟩

abbrev nBuf : Space → Nat
  | .hbm => 125
  | .vmem => 5
  | .smem => 0
  | _ => 0

abbrev bufTy : (tb : Table) → Fin (tcTables nBuf tb) → BufTy
  | .hbm, ⟨0, _⟩ => ⟨S4000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x5x3125x128, .f32⟩
  | .hbm, ⟨15, _⟩ => ⟨S2x1x1, .f32⟩
  | .hbm, ⟨16, _⟩ => ⟨S1x1x1, .f32⟩
  | .hbm, ⟨17, _⟩ => ⟨S_, .f32⟩
  | .hbm, ⟨18, _⟩ => ⟨S1x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S1, .f32⟩
  | .hbm, ⟨122, _⟩ => ⟨S1, .f32⟩
  | .hbm, ⟨123, _⟩ => ⟨S1, .f32⟩
  | .hbm, ⟨124, _⟩ => ⟨S3, .f32⟩
  | .local _ .vmem, ⟨0, _⟩ => ⟨S1x1x3125x128, .f32⟩
  | .local _ .vmem, ⟨1, _⟩ => ⟨S1x1x3125x128, .f32⟩
  | .local _ .vmem, ⟨2, _⟩ => ⟨S1x1x1, .f32⟩
  | .local _ .vmem, ⟨3, _⟩ => ⟨S1x1x1, .f32⟩
  | .local _ .vmem, ⟨4, _⟩ => ⟨S1x128, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_call0_v0 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_call1_v0 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_cst_18 : Ref sig .tc := ⟨.hbm, 98, rfl⟩
abbrev main_v63 : Ref sig .tc := ⟨.hbm, 99, rfl⟩
abbrev main_v64 : Ref sig .tc := ⟨.hbm, 100, rfl⟩
abbrev main_cst_19 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_20 : Ref sig .tc := ⟨.hbm, 111, rfl⟩
abbrev main_v74 : Ref sig .tc := ⟨.hbm, 112, rfl⟩
abbrev main_cst_21 : Ref sig .tc := ⟨.hbm, 113, rfl⟩
abbrev main_v75 : Ref sig .tc := ⟨.hbm, 114, rfl⟩
abbrev main_v76 : Ref sig .tc := ⟨.hbm, 115, rfl⟩
abbrev main_cst_22 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3125x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S4000000_S2x5x3125x128 : S4000000.ShapeCasts S2x5x3125x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1x3125x128_S1x1x3125x128_0_0_0_0 : ∀ a, (![0, 0, 0, 0] : Fin 4 → Nat) a + S1x1x3125x128.size a ≤ S1x1x3125x128.size a
  h_S1x1x3125x128 : 0 < S1x1x3125x128.numel
  shapeCasts_S1x1x3125x128_S3125x128 : S1x1x3125x128.ShapeCasts S3125x128
  reduces_S3125x128_S128 : S3125x128.Reduces [0] S128
  shapeCasts_S128_S1x128 : S128.ShapeCasts S1x128
  reduces_S1x128_S1 : S1x128.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S4000000_S1_3999997 : S4000000.Slices ![3999997] S1
  shapeCasts_S1_S_ : S1.ShapeCasts S_
  slices_S4000000_S1_3999998 : S4000000.Slices ![3999998] S1
  slices_S4000000_S1_3999999 : S4000000.Slices ![3999999] S1
  bcast_S_S1 : S_.BroadcastsInDim S1 (![] : Fin 0 → Fin S1.rank)
  concatenates_S1_S1_S1_S3_d0 : Shape.Concatenates [S1, S1, S1] S3 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3125x128.size a ≤ S2x5x3125x128.size a
  hwx0_0 : ∀ i : grid0.Coords, EltTy.bits .f32 = 32 ∨ (Rect.block (s := S2x5x3125x128) S1x1x3125x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_v0) S1x1x3125x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000 : Shape := ⟨1, ![4000000]⟩
abbrev S_ : Shape := ⟨0, ![]⟩
abbrev S1 : Shape := ⟨1, ![1]⟩
abbrev S4000001 : Shape := ⟨1, ![4000001]⟩
abbrev S3999999 : Shape := ⟨1, ![3999999]⟩
abbrev S3 : Shape := ⟨1, ![3]⟩

abbrev nBuf : Space → Nat
  | .hbm => 113
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S4000001, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S1, .f32⟩
  | .hbm, ⟨48, _⟩ => ⟨S4000001, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .i1⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S_, .f32⟩
  | .hbm, ⟨83, _⟩ => ⟨S1, .f32⟩
  | .hbm, ⟨84, _⟩ => ⟨S3999999, .f32⟩
  | .hbm, ⟨85, _⟩ => ⟨S4000000, .f32⟩
  | .hbm, ⟨86, _⟩ => ⟨S4000000, .f32⟩
  | .hbm, ⟨87, _⟩ => ⟨S4000000, .f32⟩
  | .hbm, ⟨88, _⟩ => ⟨S4000000, .f32⟩
  | .hbm, ⟨89, _⟩ => ⟨S4000000, .f32⟩
  | .hbm, ⟨90, _⟩ => ⟨S4000000, .f32⟩
  | .hbm, ⟨91, _⟩ => ⟨S4000000, .f32⟩
  | .hbm, ⟨92, _⟩ => ⟨S4000000, .f32⟩
  | .hbm, ⟨93, _⟩ => ⟨S4000000, .f32⟩
  | .hbm, ⟨94, _⟩ => ⟨S_, .f32⟩
  | .hbm, ⟨95, _⟩ => ⟨S4000000, .f32⟩
  | .hbm, ⟨96, _⟩ => ⟨S4000000, .f32⟩
  | .hbm, ⟨97, _⟩ => ⟨S_, .f32⟩
  | .hbm, ⟨98, _⟩ => ⟨S4000000, .f32⟩
  | .hbm, ⟨99, _⟩ => ⟨S4000000, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4000000, .f32⟩
  | .hbm, ⟨106, _⟩ => ⟨S4000000, .f32⟩
  | .hbm, ⟨107, _⟩ => ⟨S1, .f32⟩
  | .hbm, ⟨108, _⟩ => ⟨S_, .f32⟩
  | .hbm, ⟨109, _⟩ => ⟨S1, .f32⟩
  | .hbm, ⟨110, _⟩ => ⟨S1, .f32⟩
  | .hbm, ⟨111, _⟩ => ⟨S1, .f32⟩
  | .hbm, ⟨112, _⟩ => ⟨S3, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v21 : Ref sig .tc := ⟨.hbm, 46, rfl⟩
abbrev main_v22 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_cst_11 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_12 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  reducesTo_S4000000_S_d0 : S4000000.ReducesTo [0] S_
  h_S_ : 0 < S_.numel
  slices_S4000000_S1_0 : S4000000.Slices ![0] S1
  concatenates_S1_S4000000_S4000001_d0 : Shape.Concatenates [S1, S4000000] S4000001 0
  slices_S4000001_S4000000_1 : S4000001.Slices ![1] S4000000
  slices_S4000001_S4000000_0 : S4000001.Slices ![0] S4000000
  slices_S4000000_S1_3999999 : S4000000.Slices ![3999999] S1
  concatenates_S4000000_S1_S4000001_d0 : Shape.Concatenates [S4000000, S1] S4000001 0
  bcast_S_S4000000 : S_.BroadcastsInDim S4000000 (![] : Fin 0 → Fin S4000000.rank)
  bcast_S_S1 : S_.BroadcastsInDim S1 (![] : Fin 0 → Fin S1.rank)
  slices_S4000000_S3999999_0 : S4000000.Slices ![0] S3999999
  concatenates_S1_S3999999_S4000000_d0 : Shape.Concatenates [S1, S3999999] S4000000 0
  shapeCasts_S1_S_ : S1.ShapeCasts S_
  concatenates_S1_S1_S1_S3_d0 : Shape.Concatenates [S1, S1, S1] S3 0

variable [Facts₀]

class Facts : Prop extends Facts₀ where

variable [Facts]
-- ==== Proof.SumAroundBits.lean ====
/-
  The host lines around the one kernel region of this program, as the launch theorem wants them: the contents the
  region finds (the lines before it applied to the launch memory), the lines after it as five stretches, and the
  three facts about those later lines (they touch unscoped buffers only, allocate nothing, and write neither an
  argument nor an array the region's windows stage).  From the last fact every argument array ends as launched.
  Also here: a window's block read off its array, the one branch condition of the body decided over the grid
  (the accumulator is reset exactly at the points whose position is a multiple of 5), and the region invariant
  spelt over the scratch accumulator.
-/
import proofs.«168983_j80857054314543_2_alg».proof.Proof.Gen.Kernel.Launch
import proofs.«168983_j80857054314543_2_alg».proof.Proof.Gen.Kernel.Skeleton
import proofs.«168983_j80857054314543_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- The lines after the region, stretch by stretch. -/
abbrev later : List (List (HloOp τ sig (Elt F))) := [hostOps1, hostOps1_1, hostOps1_2, hostOps1_3, hostOps1_4]

/-- What core c's buffers hold when the region is entered: the one line before it (a reshape of the area array)
    applied to the launch memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; rfl
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The whole program is the line before the region, the region, and the later lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-- The buffers no later line writes: the fourteen arguments and the two arrays the windows stage. -/
abbrev kept : List (Ref sig .tc) :=
  [main_arg0, main_arg1, main_arg2, main_arg3, main_arg4, main_arg5, main_arg6, main_arg7, main_arg8, main_arg9,
   main_arg10, main_arg11, main_arg12, main_arg13, main_v0, main_v1]

/-- The fourteen arguments. -/
abbrev args : List (Ref sig .tc) :=
  [main_arg0, main_arg1, main_arg2, main_arg3, main_arg4, main_arg5, main_arg6, main_arg7, main_arg8, main_arg9,
   main_arg10, main_arg11, main_arg12, main_arg13]
theorem args_kept : ∀ r ∈ args, r ∈ kept := by decide
theorem args_ne0 : ∀ r ∈ args, r ≠ main_v0 := by decide
theorem args_ne1 : ∀ r ∈ args, r ≠ main_v1 := by decide
theorem args_unscoped : ∀ r ∈ args, r.isScoped = false := by decide
theorem args_noarr : ∀ r ∈ args, ∀ w, (spec0 w).arr.view.ref ≠ r := by decide
/-- An argument is unscoped and no window's array: the region bypasses it. -/
theorem args_rest : ∀ r ∈ args, r ∈ Pipeline.restRefs sig spec0 := fun r hr =>
  Pipeline.mem_restRefs_of r (args_unscoped r hr) (args_noarr r hr)

/-- Every operation writes its own result buffer only, and none of those is a kept buffer: reference by reference. -/
theorem hostOps1_kept : (hostOps1 : List (HloOp τ sig (Elt F))).Forall fun op => ∀ r ∈ kept, Proc.devRef (τ := τ) .tc r ∉ op.writes := by
  simp only [hostOps1, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_1_kept : (hostOps1_1 : List (HloOp τ sig (Elt F))).Forall fun op => ∀ r ∈ kept, Proc.devRef (τ := τ) .tc r ∉ op.writes := by
  simp only [hostOps1_1, List.Forall, StableHlo.TRef.unary, StableHlo.TRef.ternary, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_2_kept : (hostOps1_2 : List (HloOp τ sig (Elt F))).Forall fun op => ∀ r ∈ kept, Proc.devRef (τ := τ) .tc r ∉ op.writes := by
  simp only [hostOps1_2, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_3_kept : (hostOps1_3 : List (HloOp τ sig (Elt F))).Forall fun op => ∀ r ∈ kept, Proc.devRef (τ := τ) .tc r ∉ op.writes := by
  simp only [hostOps1_3, List.Forall, StableHlo.TRef.unary, StableHlo.TRef.ternary, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_4_kept : (hostOps1_4 : List (HloOp τ sig (Elt F))).Forall fun op => ∀ r ∈ kept, Proc.devRef (τ := τ) .tc r ∉ op.writes := by
  simp only [hostOps1_4, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)

/-- No later line writes a kept buffer. -/
theorem later_kept : ∀ ops ∈ (later : List (List (HloOp τ sig (Elt F)))), ∀ op ∈ ops, ∀ r ∈ kept, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop

/-- The later lines touch the windows' arrays and the bypassing buffers only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And write no array of the region's windows. -/
theorem later_keeps : ∀ ops ∈ (later : List (List (HloOp τ sig (Elt F)))), ∀ op ∈ ops,
    ∀ w, Proc.devRef .tc (Pipeline.arrRef spec0 w) ∉ op.writes := by
  intro ops hops op hop w
  have h := later_kept ops hops op hop
  fin_cases w
  · exact h main_v0 (by decide)
  · exact h main_v1 (by decide)

/-- The line before the region writes only the reshaped area array: an argument is found as launched. -/
theorem V_arg (c : Dev nD) (r : Ref sig .tc) (hr : r ∈ kept) (hr0 : r ≠ main_v0) :
    V m c r = m ((c : Thread nD τ).loc r) :=
  StableHlo.after_of_forall_not_mem (b := Proc.devRef .tc r) _ _ (by
    intro op hop
    simp only [hostOps0, List.flatten_cons, List.flatten_nil, List.append_nil, List.mem_cons, List.mem_nil_iff, or_false] at hop
    subst hop
    simp only [StableHlo.reshape_writes, Finset.mem_singleton]
    exact StableHlo.devRef_ne_of_ne hr0)

/-- No line after the region writes an argument, and no window stages one: it ends as launched. -/
theorem W_arg (dats : (p : Fin 1) → (c : Dev nD) → Dat τ (Elt F) Unit ℕ (UR sig nD τ) ℕ (cfgs p) c) (c : Dev nD)
    (r : Ref sig .tc) (hr : r ∈ args) :
    Pipeline.afterTail₀ cfgs dats 0 (V0 m) later c r = m ((c : Thread nD τ).loc r) := by
  have hr0 := args_ne0 r hr
  have hr1 := args_ne1 r hr
  have hr := args_kept r hr
  unfold Pipeline.afterTail₀
  rw [StableHlo.after_of_forall_not_mem (b := Proc.devRef .tc r) _ _ (by
      intro op hop
      obtain ⟨ops, hops, hop'⟩ := List.mem_flatten.mp hop
      exact later_kept ops hops op hop' r hr),
    Pipeline.withArrays_of_ne _ c (V0 m c) _ r (by
      intro w; fin_cases w
      · exact fun e => hr0 e.symm
      · exact fun e => hr1 e.symm)]
  exact V_arg m c r hr hr0

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body resets its accumulator when the second grid coordinate is zero. -/
abbrev isFirst (i : grid0.Coords) : Prop := (Scalar.cmpi .ne (Scalar.extui (Scalar.cmpi .eq (BitVec.ofNat 32 (i 1).val) 0#32)) 0#32) = 1#1
/-- That is at the points whose position is a multiple of 5. -/
theorem isFirst_iff : ∀ t : Fin cfg0.N, isFirst (grid0.coords t) ↔ t.val % 5 = 0 :=
  (by decide +kernel : ∀ t : Fin grid0.N, isFirst (grid0.coords t) ↔ t.val % 5 = 0)

/-- Neither window is ever idle: the body loads the input and stores the output at every point. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called with -/

abbrev ms0_0 (t : Fin cfg0.N) : Memref sig .tc .vmem S1x1x3125x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM : Memref sig .tc .vmem S1x128 .f32 := Memref.whole cc0_scratch0
/-- One staging buffer of the output window and the scratch, as views through which contents are stated. -/
abbrev VO : View sig .tc .vmem S1x1x1 .f32 := (Memref.whole cc0_stg1_0 : Memref sig .tc .vmem S1x1x1 .f32).view
abbrev VS : View sig .tc .vmem S1x128 .f32 := scM.view

/-- The class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Sum

end
-- ==== Proof.SumRunsBits.lean ====
/-
  The kernel body at one grid point, and the proof data of the region.  The body adds the column sums of its
  3125 by 128 input block into a 1 by 128 scratch accumulator (first setting it to zero at a core's first point),
  then stores the accumulator's total into its 1 by 1 by 1 output block.  Two cases: the accumulator is reset
  (the scratch may hold anything before) or carried (it holds what the point before left).  What each case
  leaves in the output buffer and in the scratch is read back from the stores the run finds; the contents after
  each point follow by recursion on the point's position.
-/
import proofs.«168983_j80857054314543_2_alg».proof.Proof.SumAroundBits

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two runs -/

set_option maxHeartbeats 1000000 in
/-- The accumulator is reset: on whole memrefs, the input at its block, the output buffer and the scratch at
    anything, the body runs and leaves the input as it was and the output buffer and the scratch with the stores
    the run finds written. -/
noncomputable def runReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) :
    Σ' (L1 : List (View.Piece (Elt F) S1x1x1 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%ds0, %fs0, -, HS0⟩, Hk⟩
    obtain rfl := harg2.eq_unread hf0
    sl_exec (disch := first | exact hc)
    sl_step
    iapply Hk
    isplitl [H0]
    · iexists _; isplitr; · ipureintro; exact harg2.read_unread _
      iexact H0
    isplitl [H1]; · iexists _; iexact H1
    iexists _; iexact HS0

set_option maxHeartbeats 1000000 in
/-- The accumulator is carried: the same with the scratch at the contents the point before left. -/
noncomputable def runCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) :
    Σ' (L1 : List (View.Piece (Elt F) S1x1x1 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc)
    sl_step
    iapply Hk
    isplitl [H0]
    · iexists _; isplitr; · ipureintro; exact harg2.read_unread _
      iexact H0
    isplitl [H1]; · iexists _; iexact H1
    iexists _; iexact HS0

end Cert.Kernel.Sum

end
-- ==== Proof.SumDataBits.lean ====
/-
  The proof data of the region.  What each case of the body leaves in the output buffer and in the scratch is its
  found stores read back; they cover their buffers.  After the point at position n the output buffer and the
  scratch hold: at a multiple of 5 what the reset case leaves from the point's input block; elsewhere what the
  carry case leaves from the point's input block and the scratch contents after position n - 1.  The region
  invariant holds the scratch at those contents between points (at anything before the first point).
-/
import proofs.«168983_j80857054314543_2_alg».proof.Proof.SumRunsBits

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverResetO (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) (y : S1x1x1.Idx) :
    ∃ pc ∈ (runReset c i arg2 harg2 arg3 harg3 arg4 harg4 hc x0).1, y ∈ pc.1.set :=
  View.cover_of_tiledL (runReset c i arg2 harg2 arg3 harg3 arg4 harg4 hc x0).1 S1x1x1.size (by sl_kernel_rfl) y

/-- What the reset case leaves in the output buffer. -/
def outReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) : Vec F S1x1x1 .f32 :=
  VO.read (Elt F) (VO.writes (Elt F) VO.junk (runReset c i arg2 harg2 arg3 harg3 arg4 harg4 hc x0).1)

theorem coverResetS (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) (y : S1x128.Idx) :
    ∃ pc ∈ (runReset c i arg2 harg2 arg3 harg3 arg4 harg4 hc x0).2.1, y ∈ pc.1.set :=
  View.cover_of_tiledL (runReset c i arg2 harg2 arg3 harg3 arg4 harg4 hc x0).2.1 S1x128.size (by sl_kernel_rfl) y

/-- What the reset case leaves in the scratch. -/
def accReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) : Vec F S1x128 .f32 :=
  VS.read (Elt F) (VS.writes (Elt F) VS.junk (runReset c i arg2 harg2 arg3 harg3 arg4 harg4 hc x0).2.1)

theorem coverCarryO (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) (y : S1x1x1.Idx) :
    ∃ pc ∈ (runCarry c i arg2 harg2 arg3 harg3 arg4 harg4 hc x0 xs0).1, y ∈ pc.1.set :=
  View.cover_of_tiledL (runCarry c i arg2 harg2 arg3 harg3 arg4 harg4 hc x0 xs0).1 S1x1x1.size (by sl_kernel_rfl) y

/-- What the carry case leaves in the output buffer. -/
def outCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) : Vec F S1x1x1 .f32 :=
  VO.read (Elt F) (VO.writes (Elt F) VO.junk (runCarry c i arg2 harg2 arg3 harg3 arg4 harg4 hc x0 xs0).1)

theorem coverCarryS (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) (y : S1x128.Idx) :
    ∃ pc ∈ (runCarry c i arg2 harg2 arg3 harg3 arg4 harg4 hc x0 xs0).2.1, y ∈ pc.1.set :=
  View.cover_of_tiledL (runCarry c i arg2 harg2 arg3 harg3 arg4 harg4 hc x0 xs0).2.1 S1x128.size (by sl_kernel_rfl) y

/-- What the carry case leaves in the scratch. -/
def accCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) : Vec F S1x128 .f32 :=
  VS.read (Elt F) (VS.writes (Elt F) VS.junk (runCarry c i arg2 harg2 arg3 harg3 arg4 harg4 hc x0 xs0).2.1)

/-! ## After each point -/

/-- The pair (output buffer, scratch) a reset point leaves. -/
def firstOut (c : Dev nD) (t : Fin cfg0.N) (h : isFirst (grid0.coords t)) : Vec F S1x1x1 .f32 × Vec F S1x128 .f32 :=
  (outReset c (grid0.coords t) (ms0_0 t) (hs0_0 t) (ms0_1 t) (hs0_1 t) scM (Memref.isWhole_whole _) h (iblk m c 0 t),
   accReset c (grid0.coords t) (ms0_0 t) (hs0_0 t) (ms0_1 t) (hs0_1 t) scM (Memref.isWhole_whole _) h (iblk m c 0 t))

/-- The pair a carry point leaves, from the scratch contents xs the point before left. -/
def nextOut (c : Dev nD) (t : Fin cfg0.N) (h : ¬isFirst (grid0.coords t)) (xs : Vec F S1x128 .f32) : Vec F S1x1x1 .f32 × Vec F S1x128 .f32 :=
  (outCarry c (grid0.coords t) (ms0_0 t) (hs0_0 t) (ms0_1 t) (hs0_1 t) scM (Memref.isWhole_whole _) h (iblk m c 0 t) xs,
   accCarry c (grid0.coords t) (ms0_0 t) (hs0_0 t) (ms0_1 t) (hs0_1 t) scM (Memref.isWhole_whole _) h (iblk m c 0 t) xs)

/-- The accumulation: the pair after the point at position n. -/
def outsAt (c : Dev nD) : (n : ℕ) → n < cfg0.N → Vec F S1x1x1 .f32 × Vec F S1x128 .f32
  | 0, hn => firstOut m c ⟨0, hn⟩ ((isFirst_iff ⟨0, hn⟩).mpr (Nat.zero_mod _))
  | n + 1, hn =>
    if h0 : (n + 1) % 5 = 0 then firstOut m c ⟨n + 1, hn⟩ ((isFirst_iff ⟨n + 1, hn⟩).mpr h0)
    else nextOut m c ⟨n + 1, hn⟩ (fun h => h0 ((isFirst_iff ⟨n + 1, hn⟩).mp h)) (outsAt c n (Nat.lt_of_succ_lt hn)).2

theorem outsAt_reset (c : Dev nD) (t : Fin cfg0.N) (h0 : t.val % 5 = 0) :
    outsAt m c t.val t.isLt = firstOut m c t ((isFirst_iff t).mpr h0) := by
  obtain ⟨n, hn⟩ := t
  cases n with
  | zero => exact rfl
  | succ n => exact (dif_pos h0).trans rfl

theorem outsAt_carry (c : Dev nD) (t : Fin cfg0.N) (h0 : ¬t.val % 5 = 0) :
    outsAt m c t.val t.isLt = nextOut m c t (fun h => h0 ((isFirst_iff t).mp h))
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- Before position n: before the first point the class invariant (the scratch at anything); afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- On core c: the arrays as the region finds them; after the body at point t the input buffer at its block and the
    output buffer at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input memref holds its block; the position decides the case; the invariant hands the
    body the scratch (at what the point before left, or at anything before the first point) and takes it back at this
    point's contents, by the cover of the found stores; the output buffer likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 5 = 0
  · rw [outsAt_reset m c t h0]
    unfold firstOut outReset accReset; (try dsimp only)
    by_cases hz : t.val = 0
    · rw [PhiS_castSucc m c t, PhiS_zero m c _ _ hz, PhiA0_eq]
      iintro ⟨⟨HS0, Hg⟩, Ho, ⟨%d0, H0⟩, ⟨%d1, H1⟩⟩
      iapply ((runReset c (grid0.coords t) _ _ _ _ _ _ ((isFirst_iff t).mpr h0) (iblk m c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (coverResetS c _ _ _ _ _ _ _ _ _)
        iexact Hg
      isplitl [Ho]; · iexact Ho
      isplitl [H0]; · iexact H0
      unfold owns; iexists _; isplitr
      swap; · iexact H1
      ipureintro; exact View.read_writes_of_cover _ _ _ _ _ (coverResetO c _ _ _ _ _ _ _ _ _)
    · rw [PhiS_castSucc m c t, PhiS_pos m c _ _ hz]
      iintro ⟨⟨HS0, Hg⟩, Ho, ⟨%d0, H0⟩, ⟨%d1, H1⟩⟩
      iapply ((runReset c (grid0.coords t) _ _ _ _ _ _ ((isFirst_iff t).mpr h0) (iblk m c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (coverResetS c _ _ _ _ _ _ _ _ _)
        iexact Hg
      isplitl [Ho]; · iexact Ho
      isplitl [H0]; · iexact H0
      unfold owns; iexists _; isplitr
      swap; · iexact H1
      ipureintro; exact View.read_writes_of_cover _ _ _ _ _ (coverResetO c _ _ _ _ _ _ _ _ _)
  · rw [outsAt_carry m c t h0]
    unfold nextOut outCarry accCarry; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩⟩
    iapply ((runCarry c (grid0.coords t) _ _ _ _ _ _ (fun h => h0 ((isFirst_iff t).mp h)) (iblk m c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (coverCarryS c _ _ _ _ _ _ _ _ _ _)
      iexact Hg
    isplitl [Ho]; · iexact Ho
    isplitl [H0]; · iexact H0
    unfold owns; iexists _; isplitr
    swap; · iexact H1
    ipureintro; exact View.read_writes_of_cover _ _ _ _ _ (coverCarryO c _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates, and every final state has each window's array at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hin := hin m) (hout := hout m)

/-- Read at the arguments, the run's post says each ends as launched: the region bypasses them and no later line
    writes one. -/
theorem post_args (st : PUnit × MemSt nD τ sig (Elt F))
    (h : Pipeline.FramePost cfgs (dats m) 0 (Pipeline.afterTail₀ cfgs (dats m) 0 (V0 m) later) st) (c : Dev nD) :
    st.2.mem ((c.tc : Thread nD τ).loc main_arg0) = m ((c.tc : Thread nD τ).loc main_arg0)
      ∧ st.2.mem ((c.tc : Thread nD τ).loc main_arg1) = m ((c.tc : Thread nD τ).loc main_arg1)
      ∧ st.2.mem ((c.tc : Thread nD τ).loc main_arg2) = m ((c.tc : Thread nD τ).loc main_arg2)
      ∧ st.2.mem ((c.tc : Thread nD τ).loc main_arg3) = m ((c.tc : Thread nD τ).loc main_arg3)
      ∧ st.2.mem ((c.tc : Thread nD τ).loc main_arg4) = m ((c.tc : Thread nD τ).loc main_arg4)
      ∧ st.2.mem ((c.tc : Thread nD τ).loc main_arg5) = m ((c.tc : Thread nD τ).loc main_arg5)
      ∧ st.2.mem ((c.tc : Thread nD τ).loc main_arg6) = m ((c.tc : Thread nD τ).loc main_arg6)
      ∧ st.2.mem ((c.tc : Thread nD τ).loc main_arg7) = m ((c.tc : Thread nD τ).loc main_arg7)
      ∧ st.2.mem ((c.tc : Thread nD τ).loc main_arg8) = m ((c.tc : Thread nD τ).loc main_arg8)
      ∧ st.2.mem ((c.tc : Thread nD τ).loc main_arg9) = m ((c.tc : Thread nD τ).loc main_arg9)
      ∧ st.2.mem ((c.tc : Thread nD τ).loc main_arg10) = m ((c.tc : Thread nD τ).loc main_arg10)
      ∧ st.2.mem ((c.tc : Thread nD τ).loc main_arg11) = m ((c.tc : Thread nD τ).loc main_arg11)
      ∧ st.2.mem ((c.tc : Thread nD τ).loc main_arg12) = m ((c.tc : Thread nD τ).loc main_arg12)
      ∧ st.2.mem ((c.tc : Thread nD τ).loc main_arg13) = m ((c.tc : Thread nD τ).loc main_arg13) :=
  have k : ∀ (b : Ref sig .tc) (hb : b ∈ args), st.2.mem ((c.tc : Thread nD τ).loc b) = m ((c.tc : Thread nD τ).loc b) := fun b hb =>
    ((h c).2 b (args_rest b hb)).trans (W_arg m (dats m) c b hb)
  ⟨k main_arg0 (by decide), k main_arg1 (by decide), k main_arg2 (by decide), k main_arg3 (by decide),
   k main_arg4 (by decide), k main_arg5 (by decide), k main_arg6 (by decide), k main_arg7 (by decide),
   k main_arg8 (by decide), k main_arg9 (by decide), k main_arg10 (by decide), k main_arg11 (by decide),
   k main_arg12 (by decide), k main_arg13 (by decide)⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun st h c => post_args m st h c) (run_main m ρ)

end Cert.Kernel.Sum

end
-- ==== Proof.SumAroundIdeal.lean ====
/-
  The host lines around the one kernel region of this program, as the launch theorem wants them: the contents the
  region finds (the lines before it applied to the launch memory), the lines after it as five stretches, and the
  three facts about those later lines (they touch unscoped buffers only, allocate nothing, and write neither an
  argument nor an array the region's windows stage).  From the last fact every argument array ends as launched.
  Also here: a window's block read off its array, the one branch condition of the body decided over the grid
  (the accumulator is reset exactly at the points whose position is a multiple of 5), and the region invariant
  spelt over the scratch accumulator.
-/
import proofs.«168983_j80857054314543_2_alg».proof.Proof.Gen.KernelIdeal.Launch
import proofs.«168983_j80857054314543_2_alg».proof.Proof.Gen.KernelIdeal.Skeleton
import proofs.«168983_j80857054314543_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- The lines after the region, stretch by stretch. -/
abbrev later : List (List (HloOp τ sig (Elt F))) := [hostOps1, hostOps1_1, hostOps1_2, hostOps1_3, hostOps1_4]

/-- What core c's buffers hold when the region is entered: the one line before it (a reshape of the area array)
    applied to the launch memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; rfl
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The whole program is the line before the region, the region, and the later lines: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact hostOps0_fresh) main_chain

/-- The buffers no later line writes: the fourteen arguments and the two arrays the windows stage. -/
abbrev kept : List (Ref sig .tc) :=
  [main_arg0, main_arg1, main_arg2, main_arg3, main_arg4, main_arg5, main_arg6, main_arg7, main_arg8, main_arg9,
   main_arg10, main_arg11, main_arg12, main_arg13, main_v0, main_v1]

/-- The fourteen arguments. -/
abbrev args : List (Ref sig .tc) :=
  [main_arg0, main_arg1, main_arg2, main_arg3, main_arg4, main_arg5, main_arg6, main_arg7, main_arg8, main_arg9,
   main_arg10, main_arg11, main_arg12, main_arg13]
theorem args_kept : ∀ r ∈ args, r ∈ kept := by decide
theorem args_ne0 : ∀ r ∈ args, r ≠ main_v0 := by decide
theorem args_ne1 : ∀ r ∈ args, r ≠ main_v1 := by decide
theorem args_unscoped : ∀ r ∈ args, r.isScoped = false := by decide
theorem args_noarr : ∀ r ∈ args, ∀ w, (spec0 w).arr.view.ref ≠ r := by decide
/-- An argument is unscoped and no window's array: the region bypasses it. -/
theorem args_rest : ∀ r ∈ args, r ∈ Pipeline.restRefs sig spec0 := fun r hr =>
  Pipeline.mem_restRefs_of r (args_unscoped r hr) (args_noarr r hr)

/-- Every operation writes its own result buffer only, and none of those is a kept buffer: reference by reference. -/
theorem hostOps1_kept : (hostOps1 : List (HloOp τ sig (Elt F))).Forall fun op => ∀ r ∈ kept, Proc.devRef (τ := τ) .tc r ∉ op.writes := by
  simp only [hostOps1, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_1_kept : (hostOps1_1 : List (HloOp τ sig (Elt F))).Forall fun op => ∀ r ∈ kept, Proc.devRef (τ := τ) .tc r ∉ op.writes := by
  simp only [hostOps1_1, List.Forall, StableHlo.TRef.unary, StableHlo.TRef.ternary, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_2_kept : (hostOps1_2 : List (HloOp τ sig (Elt F))).Forall fun op => ∀ r ∈ kept, Proc.devRef (τ := τ) .tc r ∉ op.writes := by
  simp only [hostOps1_2, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_3_kept : (hostOps1_3 : List (HloOp τ sig (Elt F))).Forall fun op => ∀ r ∈ kept, Proc.devRef (τ := τ) .tc r ∉ op.writes := by
  simp only [hostOps1_3, List.Forall, StableHlo.TRef.unary, StableHlo.TRef.ternary, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)
theorem hostOps1_4_kept : (hostOps1_4 : List (HloOp τ sig (Elt F))).Forall fun op => ∀ r ∈ kept, Proc.devRef (τ := τ) .tc r ∉ op.writes := by
  simp only [hostOps1_4, List.Forall, StableHlo.nullary_writes, StableHlo.unary_writes, StableHlo.binary_writes, StableHlo.ternary_writes, StableHlo.reshape_writes, StableHlo.nary_writes, Finset.mem_singleton]
  repeat' apply And.intro
  all_goals (intro r hr; refine StableHlo.devRef_ne_of_ne ?_; revert r; decide)

/-- No later line writes a kept buffer. -/
theorem later_kept : ∀ ops ∈ (later : List (List (HloOp τ sig (Elt F)))), ∀ op ∈ ops, ∀ r ∈ kept, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop

/-- The later lines touch the windows' arrays and the bypassing buffers only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And write no array of the region's windows. -/
theorem later_keeps : ∀ ops ∈ (later : List (List (HloOp τ sig (Elt F)))), ∀ op ∈ ops,
    ∀ w, Proc.devRef .tc (Pipeline.arrRef spec0 w) ∉ op.writes := by
  intro ops hops op hop w
  have h := later_kept ops hops op hop
  fin_cases w
  · exact h main_v0 (by decide)
  · exact h main_v1 (by decide)

/-- The line before the region writes only the reshaped area array: an argument is found as launched. -/
theorem V_arg (c : Dev nD) (r : Ref sig .tc) (hr : r ∈ kept) (hr0 : r ≠ main_v0) :
    V m c r = m ((c : Thread nD τ).loc r) :=
  StableHlo.after_of_forall_not_mem (b := Proc.devRef .tc r) _ _ (by
    intro op hop
    simp only [hostOps0, List.flatten_cons, List.flatten_nil, List.append_nil, List.mem_cons, List.mem_nil_iff, or_false] at hop
    subst hop
    simp only [StableHlo.reshape_writes, Finset.mem_singleton]
    exact StableHlo.devRef_ne_of_ne hr0)

/-- No line after the region writes an argument, and no window stages one: it ends as launched. -/
theorem W_arg (dats : (p : Fin 1) → (c : Dev nD) → Dat τ (Elt F) Unit ℕ (UR sig nD τ) ℕ (cfgs p) c) (c : Dev nD)
    (r : Ref sig .tc) (hr : r ∈ args) :
    Pipeline.afterTail₀ cfgs dats 0 (V0 m) later c r = m ((c : Thread nD τ).loc r) := by
  have hr0 := args_ne0 r hr
  have hr1 := args_ne1 r hr
  have hr := args_kept r hr
  unfold Pipeline.afterTail₀
  rw [StableHlo.after_of_forall_not_mem (b := Proc.devRef .tc r) _ _ (by
      intro op hop
      obtain ⟨ops, hops, hop'⟩ := List.mem_flatten.mp hop
      exact later_kept ops hops op hop' r hr),
    Pipeline.withArrays_of_ne _ c (V0 m c) _ r (by
      intro w; fin_cases w
      · exact fun e => hr0 e.symm
      · exact fun e => hr1 e.symm)]
  exact V_arg m c r hr hr0

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body resets its accumulator when the second grid coordinate is zero. -/
abbrev isFirst (i : grid0.Coords) : Prop := (Scalar.cmpi .ne (Scalar.extui (Scalar.cmpi .eq (BitVec.ofNat 32 (i 1).val) 0#32)) 0#32) = 1#1
/-- That is at the points whose position is a multiple of 5. -/
theorem isFirst_iff : ∀ t : Fin cfg0.N, isFirst (grid0.coords t) ↔ t.val % 5 = 0 :=
  (by decide +kernel : ∀ t : Fin grid0.N, isFirst (grid0.coords t) ↔ t.val % 5 = 0)

/-- Neither window is ever idle: the body loads the input and stores the output at every point. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called with -/

abbrev ms0_0 (t : Fin cfg0.N) : Memref sig .tc .vmem S1x1x3125x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM : Memref sig .tc .vmem S1x128 .f32 := Memref.whole cc0_scratch0
/-- One staging buffer of the output window and the scratch, as views through which contents are stated. -/
abbrev VO : View sig .tc .vmem S1x1x1 .f32 := (Memref.whole cc0_stg1_0 : Memref sig .tc .vmem S1x1x1 .f32).view
abbrev VS : View sig .tc .vmem S1x128 .f32 := scM.view

/-- The class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Sum

end
-- ==== Proof.SumRunsIdeal.lean ====
/-
  The kernel body at one grid point, and the proof data of the region.  The body adds the column sums of its
  3125 by 128 input block into a 1 by 128 scratch accumulator (first setting it to zero at a core's first point),
  then stores the accumulator's total into its 1 by 1 by 1 output block.  Two cases: the accumulator is reset
  (the scratch may hold anything before) or carried (it holds what the point before left).  What each case
  leaves in the output buffer and in the scratch is read back from the stores the run finds; the contents after
  each point follow by recursion on the point's position.
-/
import proofs.«168983_j80857054314543_2_alg».proof.Proof.SumAroundIdeal

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two runs -/

set_option maxHeartbeats 1000000 in
/-- The accumulator is reset: on whole memrefs, the input at its block, the output buffer and the scratch at
    anything, the body runs and leaves the input as it was and the output buffer and the scratch with the stores
    the run finds written. -/
noncomputable def runReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) :
    Σ' (L1 : List (View.Piece (Elt F) S1x1x1 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%ds0, %fs0, -, HS0⟩, Hk⟩
    obtain rfl := harg2.eq_unread hf0
    sl_exec (disch := first | exact hc)
    sl_step
    iapply Hk
    isplitl [H0]
    · iexists _; isplitr; · ipureintro; exact harg2.read_unread _
      iexact H0
    isplitl [H1]; · iexists _; iexact H1
    iexists _; iexact HS0

set_option maxHeartbeats 1000000 in
/-- The accumulator is carried: the same with the scratch at the contents the point before left. -/
noncomputable def runCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) :
    Σ' (L1 : List (View.Piece (Elt F) S1x1x1 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc)
    sl_step
    iapply Hk
    isplitl [H0]
    · iexists _; isplitr; · ipureintro; exact harg2.read_unread _
      iexact H0
    isplitl [H1]; · iexists _; iexact H1
    iexists _; iexact HS0

end Cert.KernelIdeal.Sum

end
-- ==== Proof.SumDataIdeal.lean ====
/-
  The proof data of the region.  What each case of the body leaves in the output buffer and in the scratch is its
  found stores read back; they cover their buffers.  After the point at position n the output buffer and the
  scratch hold: at a multiple of 5 what the reset case leaves from the point's input block; elsewhere what the
  carry case leaves from the point's input block and the scratch contents after position n - 1.  The region
  invariant holds the scratch at those contents between points (at anything before the first point).
-/
import proofs.«168983_j80857054314543_2_alg».proof.Proof.SumRunsIdeal

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverResetO (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) (y : S1x1x1.Idx) :
    ∃ pc ∈ (runReset c i arg2 harg2 arg3 harg3 arg4 harg4 hc x0).1, y ∈ pc.1.set :=
  View.cover_of_tiledL (runReset c i arg2 harg2 arg3 harg3 arg4 harg4 hc x0).1 S1x1x1.size (by sl_kernel_rfl) y

/-- What the reset case leaves in the output buffer. -/
def outReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) : Vec F S1x1x1 .f32 :=
  VO.read (Elt F) (VO.writes (Elt F) VO.junk (runReset c i arg2 harg2 arg3 harg3 arg4 harg4 hc x0).1)

theorem coverResetS (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) (y : S1x128.Idx) :
    ∃ pc ∈ (runReset c i arg2 harg2 arg3 harg3 arg4 harg4 hc x0).2.1, y ∈ pc.1.set :=
  View.cover_of_tiledL (runReset c i arg2 harg2 arg3 harg3 arg4 harg4 hc x0).2.1 S1x128.size (by sl_kernel_rfl) y

/-- What the reset case leaves in the scratch. -/
def accReset (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : isFirst i)
    (x0 : Vec F S1x1x3125x128 .f32) : Vec F S1x128 .f32 :=
  VS.read (Elt F) (VS.writes (Elt F) VS.junk (runReset c i arg2 harg2 arg3 harg3 arg4 harg4 hc x0).2.1)

theorem coverCarryO (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) (y : S1x1x1.Idx) :
    ∃ pc ∈ (runCarry c i arg2 harg2 arg3 harg3 arg4 harg4 hc x0 xs0).1, y ∈ pc.1.set :=
  View.cover_of_tiledL (runCarry c i arg2 harg2 arg3 harg3 arg4 harg4 hc x0 xs0).1 S1x1x1.size (by sl_kernel_rfl) y

/-- What the carry case leaves in the output buffer. -/
def outCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) : Vec F S1x1x1 .f32 :=
  VO.read (Elt F) (VO.writes (Elt F) VO.junk (runCarry c i arg2 harg2 arg3 harg3 arg4 harg4 hc x0 xs0).1)

theorem coverCarryS (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) (y : S1x128.Idx) :
    ∃ pc ∈ (runCarry c i arg2 harg2 arg3 harg3 arg4 harg4 hc x0 xs0).2.1, y ∈ pc.1.set :=
  View.cover_of_tiledL (runCarry c i arg2 harg2 arg3 harg3 arg4 harg4 hc x0 xs0).2.1 S1x128.size (by sl_kernel_rfl) y

/-- What the carry case leaves in the scratch. -/
def accCarry (c : Dev nD) (i : grid0.Coords) (arg2 : Memref sig .tc .vmem S1x1x3125x128 .f32) (harg2 : arg2.IsWhole) (arg3 : Memref sig .tc .vmem S1x1x1 .f32) (harg3 : arg3.IsWhole) (arg4 : Memref sig .tc .vmem S1x128 .f32) (harg4 : arg4.IsWhole) (hc : ¬isFirst i)
    (x0 : Vec F S1x1x3125x128 .f32) (xs0 : Vec F S1x128 .f32) : Vec F S1x128 .f32 :=
  VS.read (Elt F) (VS.writes (Elt F) VS.junk (runCarry c i arg2 harg2 arg3 harg3 arg4 harg4 hc x0 xs0).2.1)

/-! ## After each point -/

/-- The pair (output buffer, scratch) a reset point leaves. -/
def firstOut (c : Dev nD) (t : Fin cfg0.N) (h : isFirst (grid0.coords t)) : Vec F S1x1x1 .f32 × Vec F S1x128 .f32 :=
  (outReset c (grid0.coords t) (ms0_0 t) (hs0_0 t) (ms0_1 t) (hs0_1 t) scM (Memref.isWhole_whole _) h (iblk m c 0 t),
   accReset c (grid0.coords t) (ms0_0 t) (hs0_0 t) (ms0_1 t) (hs0_1 t) scM (Memref.isWhole_whole _) h (iblk m c 0 t))

/-- The pair a carry point leaves, from the scratch contents xs the point before left. -/
def nextOut (c : Dev nD) (t : Fin cfg0.N) (h : ¬isFirst (grid0.coords t)) (xs : Vec F S1x128 .f32) : Vec F S1x1x1 .f32 × Vec F S1x128 .f32 :=
  (outCarry c (grid0.coords t) (ms0_0 t) (hs0_0 t) (ms0_1 t) (hs0_1 t) scM (Memref.isWhole_whole _) h (iblk m c 0 t) xs,
   accCarry c (grid0.coords t) (ms0_0 t) (hs0_0 t) (ms0_1 t) (hs0_1 t) scM (Memref.isWhole_whole _) h (iblk m c 0 t) xs)

/-- The accumulation: the pair after the point at position n. -/
def outsAt (c : Dev nD) : (n : ℕ) → n < cfg0.N → Vec F S1x1x1 .f32 × Vec F S1x128 .f32
  | 0, hn => firstOut m c ⟨0, hn⟩ ((isFirst_iff ⟨0, hn⟩).mpr (Nat.zero_mod _))
  | n + 1, hn =>
    if h0 : (n + 1) % 5 = 0 then firstOut m c ⟨n + 1, hn⟩ ((isFirst_iff ⟨n + 1, hn⟩).mpr h0)
    else nextOut m c ⟨n + 1, hn⟩ (fun h => h0 ((isFirst_iff ⟨n + 1, hn⟩).mp h)) (outsAt c n (Nat.lt_of_succ_lt hn)).2

theorem outsAt_reset (c : Dev nD) (t : Fin cfg0.N) (h0 : t.val % 5 = 0) :
    outsAt m c t.val t.isLt = firstOut m c t ((isFirst_iff t).mpr h0) := by
  obtain ⟨n, hn⟩ := t
  cases n with
  | zero => exact rfl
  | succ n => exact (dif_pos h0).trans rfl

theorem outsAt_carry (c : Dev nD) (t : Fin cfg0.N) (h0 : ¬t.val % 5 = 0) :
    outsAt m c t.val t.isLt = nextOut m c t (fun h => h0 ((isFirst_iff t).mp h))
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The invariant -/

/-- Before position n: before the first point the class invariant (the scratch at anything); afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- On core c: the arrays as the region finds them; after the body at point t the input buffer at its block and the
    output buffer at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input memref holds its block; the position decides the case; the invariant hands the
    body the scratch (at what the point before left, or at anything before the first point) and takes it back at this
    point's contents, by the cover of the found stores; the output buffer likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 5 = 0
  · rw [outsAt_reset m c t h0]
    unfold firstOut outReset accReset; (try dsimp only)
    by_cases hz : t.val = 0
    · rw [PhiS_castSucc m c t, PhiS_zero m c _ _ hz, PhiA0_eq]
      iintro ⟨⟨HS0, Hg⟩, Ho, ⟨%d0, H0⟩, ⟨%d1, H1⟩⟩
      iapply ((runReset c (grid0.coords t) _ _ _ _ _ _ ((isFirst_iff t).mpr h0) (iblk m c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (coverResetS c _ _ _ _ _ _ _ _ _)
        iexact Hg
      isplitl [Ho]; · iexact Ho
      isplitl [H0]; · iexact H0
      unfold owns; iexists _; isplitr
      swap; · iexact H1
      ipureintro; exact View.read_writes_of_cover _ _ _ _ _ (coverResetO c _ _ _ _ _ _ _ _ _)
    · rw [PhiS_castSucc m c t, PhiS_pos m c _ _ hz]
      iintro ⟨⟨HS0, Hg⟩, Ho, ⟨%d0, H0⟩, ⟨%d1, H1⟩⟩
      iapply ((runReset c (grid0.coords t) _ _ _ _ _ _ ((isFirst_iff t).mpr h0) (iblk m c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (coverResetS c _ _ _ _ _ _ _ _ _)
        iexact Hg
      isplitl [Ho]; · iexact Ho
      isplitl [H0]; · iexact H0
      unfold owns; iexists _; isplitr
      swap; · iexact H1
      ipureintro; exact View.read_writes_of_cover _ _ _ _ _ (coverResetO c _ _ _ _ _ _ _ _ _)
  · rw [outsAt_carry m c t h0]
    unfold nextOut outCarry accCarry; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩⟩
    iapply ((runCarry c (grid0.coords t) _ _ _ _ _ _ (fun h => h0 ((isFirst_iff t).mp h)) (iblk m c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (coverCarryS c _ _ _ _ _ _ _ _ _ _)
      iexact Hg
    isplitl [Ho]; · iexact Ho
    isplitl [H0]; · iexact H0
    unfold owns; iexists _; isplitr
    swap; · iexact H1
    ipureintro; exact View.read_writes_of_cover _ _ _ _ _ (coverCarryO c _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates, and every final state has each window's array at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hin := hin m) (hout := hout m)

/-- Read at the arguments, the run's post says each ends as launched: the region bypasses them and no later line
    writes one. -/
theorem post_args (st : PUnit × MemSt nD τ sig (Elt F))
    (h : Pipeline.FramePost cfgs (dats m) 0 (Pipeline.afterTail₀ cfgs (dats m) 0 (V0 m) later) st) (c : Dev nD) :
    st.2.mem ((c.tc : Thread nD τ).loc main_arg0) = m ((c.tc : Thread nD τ).loc main_arg0)
      ∧ st.2.mem ((c.tc : Thread nD τ).loc main_arg1) = m ((c.tc : Thread nD τ).loc main_arg1)
      ∧ st.2.mem ((c.tc : Thread nD τ).loc main_arg2) = m ((c.tc : Thread nD τ).loc main_arg2)
      ∧ st.2.mem ((c.tc : Thread nD τ).loc main_arg3) = m ((c.tc : Thread nD τ).loc main_arg3)
      ∧ st.2.mem ((c.tc : Thread nD τ).loc main_arg4) = m ((c.tc : Thread nD τ).loc main_arg4)
      ∧ st.2.mem ((c.tc : Thread nD τ).loc main_arg5) = m ((c.tc : Thread nD τ).loc main_arg5)
      ∧ st.2.mem ((c.tc : Thread nD τ).loc main_arg6) = m ((c.tc : Thread nD τ).loc main_arg6)
      ∧ st.2.mem ((c.tc : Thread nD τ).loc main_arg7) = m ((c.tc : Thread nD τ).loc main_arg7)
      ∧ st.2.mem ((c.tc : Thread nD τ).loc main_arg8) = m ((c.tc : Thread nD τ).loc main_arg8)
      ∧ st.2.mem ((c.tc : Thread nD τ).loc main_arg9) = m ((c.tc : Thread nD τ).loc main_arg9)
      ∧ st.2.mem ((c.tc : Thread nD τ).loc main_arg10) = m ((c.tc : Thread nD τ).loc main_arg10)
      ∧ st.2.mem ((c.tc : Thread nD τ).loc main_arg11) = m ((c.tc : Thread nD τ).loc main_arg11)
      ∧ st.2.mem ((c.tc : Thread nD τ).loc main_arg12) = m ((c.tc : Thread nD τ).loc main_arg12)
      ∧ st.2.mem ((c.tc : Thread nD τ).loc main_arg13) = m ((c.tc : Thread nD τ).loc main_arg13) :=
  have k : ∀ (b : Ref sig .tc) (hb : b ∈ args), st.2.mem ((c.tc : Thread nD τ).loc b) = m ((c.tc : Thread nD τ).loc b) := fun b hb =>
    ((h c).2 b (args_rest b hb)).trans (W_arg m (dats m) c b hb)
  ⟨k main_arg0 (by decide), k main_arg1 (by decide), k main_arg2 (by decide), k main_arg3 (by decide),
   k main_arg4 (by decide), k main_arg5 (by decide), k main_arg6 (by decide), k main_arg7 (by decide),
   k main_arg8 (by decide), k main_arg9 (by decide), k main_arg10 (by decide), k main_arg11 (by decide),
   k main_arg12 (by decide), k main_arg13 (by decide)⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun st h c => post_args m st h c) (run_main m ρ)

end Cert.KernelIdeal.Sum

end
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.SumPayloads.lean ====
/-
  The three values the summing kernel stores, read at an index.  The first is the zero that starts a lane-wise
  running sum.  The second adds to the running sum, lane by lane, the sum of the 3125 rows of one [3125, 128] block.
  The third is the total of the 128 lanes of the running sum.
-/
import proofs.«168983_j80857054314543_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«168983_j80857054314543_2_alg».proof.Proof.LibFirstAxis
import proofs.«168983_j80857054314543_2_alg».proof.Proof.LibKeepdims

namespace Cert.SumPayloads

open Idealize.ShloMosaic Idealize.ShloMosaic.ValueIdx Cert.KernelIdeal Cert.KernelIdeal.Gen

variable [Cert.KernelIdeal.Facts]

/-- A [1, 1, a, b] array cast to [a, b] reads, at (r, l), the operand at (0, 0, r, l): the two have the same
    row-major position r * b + l. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (r : Fin a) (l : Fin b) :
    shapeCast ⟨2, ![a, b]⟩ x h (ix2 r l) = x (ix4 (0 : Fin 1) (0 : Fin 1) r l) :=
  shapeCast_apply x h _ _ (by
    rw [Shape.rowMajor_val_four, Shape.rowMajor_val_two]
    show ((0 * 1 + 0) * a + r.val) * b + l.val = r.val * b + l.val
    simp only [Nat.zero_mul, Nat.zero_add])

/-- The value that starts the running sum is zero in every lane. -/
theorem pay1_apply (l : Fin 128) :
    k0_pay1 (F := Ideal) (ix2 (0 : Fin 1) l) = FloatOps.ofBits (F := Ideal) .f32 0x00000000#32 := by
  unfold k0_pay1
  exact congrFun (shapeCast_self _ _) _

/-- The updated running sum in lane l: the old one plus the sum over the 3125 rows of the block's entries in that lane. -/
theorem pay2_apply (x : Vec Ideal S1x1x3125x128 .f32) (xs : Vec Ideal S1x128 .f32) (l : Fin 128) :
    k0_pay2 x xs (ix2 (0 : Fin 1) l)
      = xs (ix2 (0 : Fin 1) l) + ∑ r : Fin 3125, x (ix4 (0 : Fin 1) (0 : Fin 1) r l) := by
  unfold k0_pay2
  refine (congrFun (shapeCast_self _ _) _).trans ?_
  refine (addf_apply _ _ _).trans ?_
  refine congrArg (fun t => xs (ix2 (0 : Fin 1) l) + t) ?_
  refine (shapeCast_a_1a_apply _ _ (0 : Fin 1) l).trans ?_
  refine (Cert.LibFirstAxis.sum_first2_apply _ _ _ _ _ l).trans ?_
  exact Finset.sum_congr rfl fun r _ => shapeCast_11ab_ab_apply x _ r l

/-- The reported partial total: the sum of the 128 lanes of the running sum. -/
theorem pay3_apply (v : Vec Ideal S1x128 .f32) :
    k0_pay3 v (ix3 (0 : Fin 1) (0 : Fin 1) (0 : Fin 1)) = ∑ l : Fin 128, v (ix2 (0 : Fin 1) l) := by
  unfold k0_pay3
  refine (shapeCast_ab_1ab_apply _ _ (0 : Fin 1) (0 : Fin 1) (0 : Fin 1)).trans ?_
  refine (shapeCast_a_1a_apply _ _ (0 : Fin 1) (0 : Fin 1)).trans ?_
  exact Cert.LibKeepdims.sum_last2_apply _ _ _ _ _ (0 : Fin 1)

end Cert.SumPayloads
-- ==== Proof.LibSums3.lean ====
/-
  Finite sums over array indices and three small layout reads, for any extents. A sum over a rank-3 index set is the
  threefold sum over its coordinates, a sum over a rank-1 index set the sum over its one coordinate, and a sum over the
  indices of a `[1, a]` array the sum over its `a` columns. The host's float sum over the FIRST TWO axes of an
  `[a, b, c]` array, read at `j`, is the initial value plus the double sum over the first two coordinates of the entries
  `(p, q, j)` (the library reads a sum over one axis, or a total over every axis; this is the case between them). A
  `[1, 1, a]` array cast to `[a]` reads, at `i`, the entry `(0, 0, i)`, and a `[1, 1]` array cast to a scalar reads its one entry.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibSums3

open Idealize.ShloMosaic Idealize.ShloMosaic.ValueIdx

/-! ## Sums over index sets -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a `[1, a]` array is the sum over its `a` columns. -/
theorem sum_idx_1a {M : Type*} [AddCommMonoid M] {a : Nat} (f : (⟨2, ![1, a]⟩ : Shape).Idx → M) :
    ∑ i, f i = ∑ j : Fin a, f (ix2 (0 : Fin 1) j) := by
  rw [sum_idx2]
  exact Fin.sum_univ_one _

/-- The host's float sum over the first two axes of an `[a, b, c]` array, at `j`: the initial value plus the double sum
    over the first two coordinates of the entries `(p, q, j)`. -/
theorem hostSum_first2of3 {a b c : ℕ} (x : (⟨3, ![a, b, c]⟩ : Shape).Idx → EReal) (init : EReal)
    (h' : (⟨3, ![a, b, c]⟩ : Shape).ReducesTo [0, 1] (⟨1, ![c]⟩ : Shape)) (j : Fin c) :
    Ideal.hostReduceAdd h' x init (ix1 j) = init + ∑ p : Fin a, ∑ q : Fin b, x (ix3 p q j) := by
  unfold Ideal.hostReduceAdd
  refine congrArg (init + ·) ?_
  rw [Finset.sum_filter, sum_idx3]
  refine Finset.sum_congr rfl fun p _ => Finset.sum_congr rfl fun q _ => ?_
  have key : ∀ r : Fin c, (h'.drop (ix3 p q r) = ix1 j) ↔ r = j := fun r => by
    have hv : ∀ r' : Fin c, ((h'.drop (ix3 p q r') 0 : Fin _) : ℕ) = r'.val := fun r' => rfl
    constructor
    · intro e
      have e0 : ((h'.drop (ix3 p q r) 0 : Fin _) : ℕ) = j.val := by rw [e]; rfl
      exact Fin.ext ((hv r).symm.trans e0)
    · rintro rfl
      funext d
      match d with
      | ⟨0, _⟩ => exact Fin.ext (hv r)
  simp only [key, Finset.sum_ite_eq', Finset.mem_univ, if_true]

/-! ## Two casts that drop unit axes -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A `[1, 1]` array cast to a scalar reads its one entry. -/
theorem shapeCast_11_scalar_apply {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) := by
  unfold shapeCast
  refine congrArg x ?_
  exact (eq_ix2 _).trans (congrArg₂ ix2 (Subsingleton.elim _ _) (Subsingleton.elim _ _))

end Cert.LibSums3

end
-- ==== Proof.OutletSums.lean ====
/-
  Regrouping a sum over the four million entries of a flat array by the coordinates of a [2, 5, 3125, 128] array
  laid out row-major.  The entry (c, g, r, l) sits at position ((c * 5 + g) * 3125 + r) * 128 + l; division and
  remainder by the extents recover the four coordinates, so the positions are in bijection with the quadruples, and
  a sum over all positions is the fourfold sum over the coordinates, taken here with the last coordinate l outside
  the two middle ones.  The values are extended reals, a commutative additive monoid: only the algebra of finite
  sums is used.
-/
import Idealize.ShloMosaic.Lib.ValueIdx
import Idealize.ShloMosaic.PureOps.Ideal
import proofs.«168983_j80857054314543_2_alg».proof.Proof.LibSums3

namespace Cert.OutletSums

open Idealize.ShloMosaic Idealize.ShloMosaic.ValueIdx

/-- The row-major position of entry (c, g, r, l) of a [2, 5, 3125, 128] array. -/
def flat (c : Fin 2) (g : Fin 5) (r : Fin 3125) (l : Fin 128) : Fin 4000000 :=
  ⟨((c.val * 5 + g.val) * 3125 + r.val) * 128 + l.val, by omega⟩

/-- The four coordinates of a position: successive quotients and remainders by the extents. -/
def unflat (j : Fin 4000000) : Fin 2 × Fin 5 × Fin 3125 × Fin 128 :=
  (⟨j.val / 2000000, by omega⟩, ⟨j.val / 400000 % 5, by omega⟩, ⟨j.val / 128 % 3125, by omega⟩,
    ⟨j.val % 128, by omega⟩)

/-- The coordinates of the position of (c, g, r, l) are (c, g, r, l). -/
theorem unflat_flat (c : Fin 2) (g : Fin 5) (r : Fin 3125) (l : Fin 128) :
    unflat (flat c g r l) = (c, g, r, l) := by
  refine Prod.ext (Fin.ext ?_) (Prod.ext (Fin.ext ?_) (Prod.ext (Fin.ext ?_) (Fin.ext ?_)))
  · show (((c.val * 5 + g.val) * 3125 + r.val) * 128 + l.val) / 2000000 = c.val
    omega
  · show (((c.val * 5 + g.val) * 3125 + r.val) * 128 + l.val) / 400000 % 5 = g.val
    omega
  · show (((c.val * 5 + g.val) * 3125 + r.val) * 128 + l.val) / 128 % 3125 = r.val
    omega
  · show (((c.val * 5 + g.val) * 3125 + r.val) * 128 + l.val) % 128 = l.val
    omega

/-- The position of the coordinates of j is j. -/
theorem flat_unflat (j : Fin 4000000) :
    flat (unflat j).1 (unflat j).2.1 (unflat j).2.2.1 (unflat j).2.2.2 = j := by
  refine Fin.ext ?_
  show ((j.val / 2000000 * 5 + j.val / 400000 % 5) * 3125 + j.val / 128 % 3125) * 128 + j.val % 128 = j.val
  omega

/-- Quadruples of coordinates and positions correspond one to one. -/
def flatEquiv : Fin 2 × Fin 5 × Fin 3125 × Fin 128 ≃ Fin 4000000 where
  toFun p := flat p.1 p.2.1 p.2.2.1 p.2.2.2
  invFun := unflat
  left_inv p := unflat_flat p.1 p.2.1 p.2.2.1 p.2.2.2
  right_inv := flat_unflat

/-- A threefold sum with its innermost variable brought outermost. -/
theorem sum_rotate {M : Type*} [AddCommMonoid M] {α β γ : Type*} [Fintype α] [Fintype β] [Fintype γ]
    (F : α → β → γ → M) : ∑ a, ∑ b, ∑ c, F a b c = ∑ c, ∑ a, ∑ b, F a b c :=
  (Finset.sum_congr rfl fun _ _ => Finset.sum_comm).trans Finset.sum_comm

/-- A sum over Fin 4000000 is the fourfold sum over the coordinates, in row-major order. -/
theorem sum_fin_eq (y : Fin 4000000 → EReal) :
    ∑ j, y j = ∑ c : Fin 2, ∑ g : Fin 5, ∑ r : Fin 3125, ∑ l : Fin 128, y (flat c g r l) := by
  rw [← Equiv.sum_comp flatEquiv y, Fintype.sum_prod_type]
  refine Finset.sum_congr rfl fun c _ => ?_
  rw [Fintype.sum_prod_type]
  refine Finset.sum_congr rfl fun g _ => ?_
  rw [Fintype.sum_prod_type]
  rfl

/-- A sum over the positions of a flat array of four million entries, regrouped by the coordinates of the
    [2, 5, 3125, 128] array, the last coordinate outside the two middle ones. -/
theorem sum_regroup (x : (⟨1, ![4000000]⟩ : Idealize.ShloMosaic.Shape).Idx → EReal) :
    ∑ j, x j = ∑ c : Fin 2, ∑ l : Fin 128, ∑ g : Fin 5, ∑ r : Fin 3125,
      x (Idealize.ShloMosaic.ValueIdx.ix1 (flat c g r l)) := by
  rw [Cert.LibSums3.sum_idx1, sum_fin_eq (fun j => x (ix1 j))]
  exact Finset.sum_congr rfl fun c _ => sum_rotate (fun g r l => x (ix1 (flat c g r l)))

end Cert.OutletSums
-- ==== Proof.SumBlocks.lean ====
/-
  The input window of the summing kernel, read at an index.  The area array of four million entries reaches the
  kernel region reshaped to [2, 5, 3125, 128]; the window's block at grid point t is the [1, 1, 3125, 128] block
  at position (t / 5, t % 5, 0, 0) of that array.  So entry (0, 0, r, l) of the block at point t is the area at
  row-major position ((t / 5 * 5 + t % 5) * 3125 + r) * 128 + l.
-/
import proofs.«168983_j80857054314543_2_alg».proof.Proof.SumAroundIdeal
import proofs.«168983_j80857054314543_2_alg».proof.Proof.OutletSums
import Idealize.ShloMosaic.Lib.Pipeline.Value
import Idealize.ShloMosaic.Lib.ValueIdx
import Idealize.ShloMosaic.Lib.StableHlo.Run

noncomputable section

namespace Cert.SumBlocks

open Cert.KernelIdeal Cert.KernelIdeal.Gen Cert.KernelIdeal.Sum
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- What the region finds in the reshaped area array: the launched area array, cast to [2, 5, 3125, 128]. -/
theorem V_v0 (c : Dev nD) :
    (V m c main_v0 : S2x5x3125x128.Idx → Ideal .f32)
      = shapeCast S2x5x3125x128 (m ((c : Thread nD τ).loc main_arg0) : S4000000.Idx → Ideal .f32)
          shapeCasts_S4000000_S2x5x3125x128 := by
  dsimp only [V, V0, hostOps0]
  simp only [List.flatten_cons, List.flatten_nil, List.append_nil]
  after_results
  rfl

/-- The grid has ten points. -/
theorem lt10 (t : Fin cfg0.N) : t.val < 10 := t.isLt.trans_eq N_0

/-- The input window's index map, decided once over the grid: point t reads block (t / 5, t % 5, 0, 0). -/
theorem idx_facts : ∀ t : Fin cfg0.N,
    win0_0.index t 0 = t.val / 5 ∧ win0_0.index t 1 = t.val % 5 ∧ win0_0.index t 2 = 0 ∧ win0_0.index t 3 = 0 :=
  (by decide +kernel : ∀ t : Fin grid0.N,
    win0_0.index t 0 = t.val / 5 ∧ win0_0.index t 1 = t.val % 5 ∧ win0_0.index t 2 = 0 ∧ win0_0.index t 3 = 0)

/-- Entry (0, 0, r, l) of the input block at grid point t is the area at the row-major position of
    (t / 5, t % 5, r, l). -/
theorem iblk_apply (c : Dev nD) (t : Fin cfg0.N) (r : Fin 3125) (l : Fin 128) :
    (iblk m c 0 t : Vec Ideal S1x1x3125x128 .f32) (ix4 (0 : Fin 1) (0 : Fin 1) r l)
      = (m ((c : Thread nD τ).loc main_arg0) : S4000000.Idx → Ideal .f32)
          (ix1 (Cert.OutletSums.flat ⟨t.val / 5, by have := lt10 t; omega⟩ ⟨t.val % 5, by omega⟩ r l)) := by
  have hi := idx_facts t
  have ht := lt10 t
  unfold iblk
  rw [View.read_apply]
  show (V m c main_v0 : S2x5x3125x128.Idx → Ideal .f32) _ = _
  rw [V_v0]
  refine shapeCast_apply _ _ _ _ ?_
  show ((⟨1, ![4000000]⟩ : Shape).rowMajor (ix1 (Cert.OutletSums.flat ⟨t.val / 5, _⟩ ⟨t.val % 5, _⟩ r l))).val
    = ((⟨4, ![2, 5, 3125, 128]⟩ : Shape).rowMajor (((cfg0.win 0).blk t).view.emb (ix4 (0 : Fin 1) (0 : Fin 1) r l))).val
  rw [Shape.rowMajor_val_one, Shape.rowMajor_val_four]
  show ((t.val / 5 * 5 + t.val % 5) * 3125 + r.val) * 128 + l.val
    = (((win0_0.index t 0 * 1 + 1 * 0) * 5 + (win0_0.index t 1 * 1 + 1 * 0)) * 3125
        + (win0_0.index t 2 * 3125 + 1 * r.val)) * 128 + (win0_0.index t 3 * 128 + 1 * l.val)
  rw [hi.1, hi.2.1, hi.2.2.1, hi.2.2.2]
  omega

end Cert.SumBlocks

end
-- ==== Proof.SumValue.lean ====
/-
  What the kernel region leaves in its two-entry output array, at the ideal values.  What each case of the body
  leaves is its payloads (the column sums of the point's block added into the scratch, the scratch's total stored
  into the output buffer); the scratch after each point is therefore a chain of payloads, which at the ideal values
  is, lane by lane, zero plus the column sums of the blocks the core has read so far.  The output window is written
  back after each core's fifth point, so entry q of the array ends as the sum, over lanes, steps and rows, of core
  q's half of the area array; the two entries add up to the sum of the whole array, by regrouping a finite sum of
  extended reals (no finiteness is needed: the extended reals are a commutative monoid under addition).
-/
import proofs.«168983_j80857054314543_2_alg».proof.Proof.SumDataIdeal
import proofs.«168983_j80857054314543_2_alg».proof.Proof.SumPayloads
import proofs.«168983_j80857054314543_2_alg».proof.Proof.SumBlocks
import proofs.«168983_j80857054314543_2_alg».proof.Proof.OutletSums
import Idealize.ShloMosaic.Lib.Pipeline.Value

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each case leaves, as payloads -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A carry point leaves in the scratch the column sums of its block added to what the scratch held. -/
theorem accCarry_eq (c : Dev nD) (i : grid0.Coords) (a2 : Memref sig .tc .vmem S1x1x3125x128 .f32) (h2 : a2.IsWhole) (a3 : Memref sig .tc .vmem S1x1x1 .f32) (h3 : a3.IsWhole) (a4 : Memref sig .tc .vmem S1x128 .f32) (h4 : a4.IsWhole) (hc : ¬isFirst i)
    (x : Vec F S1x1x3125x128 .f32) (xs : Vec F S1x128 .f32) :
    accCarry c i a2 h2 a3 h3 a4 h4 hc x xs = k0_pay2 x xs := by
  unfold accCarry
  rw [View.read_writes_eq_canon _ _ _ (coverCarryS c i a2 h2 a3 h3 a4 h4 hc x xs)]
  unfold runCarry
  dsimp only
  sl_unfold_words
  rw [View.canon_unit_zero hz2]
  simp only [View.readAt_eq_ld, h2.read_unread, h4.read_unread, View.ld_unit_zero (S := S1x1x3125x128) hz4, View.ld_unit_zero (S := S1x128) hz2]

/-- and in the output buffer the total of the new scratch contents. -/
theorem outCarry_eq (c : Dev nD) (i : grid0.Coords) (a2 : Memref sig .tc .vmem S1x1x3125x128 .f32) (h2 : a2.IsWhole) (a3 : Memref sig .tc .vmem S1x1x1 .f32) (h3 : a3.IsWhole) (a4 : Memref sig .tc .vmem S1x128 .f32) (h4 : a4.IsWhole) (hc : ¬isFirst i)
    (x : Vec F S1x1x3125x128 .f32) (xs : Vec F S1x128 .f32) :
    outCarry c i a2 h2 a3 h3 a4 h4 hc x xs = k0_pay3 (k0_pay2 x xs) := by
  unfold outCarry
  rw [View.read_writes_eq_canon _ _ _ (coverCarryO c i a2 h2 a3 h3 a4 h4 hc x xs)]
  unfold runCarry
  dsimp only
  sl_unfold_words
  rw [View.canon_unit_zero (S := S1x1x1) hz3, View.readCov_cons_toLoadRect]
  simp only [View.readAt_eq_ld, h2.read_unread, h4.read_unread, View.ld_unit_zero (S := S1x1x3125x128) hz4, View.ld_unit_zero (S := S1x128) hz2]

/-- A reset point leaves in the scratch the column sums of its block added to the zero row it first stored, -/
theorem accReset_eq (c : Dev nD) (i : grid0.Coords) (a2 : Memref sig .tc .vmem S1x1x3125x128 .f32) (h2 : a2.IsWhole) (a3 : Memref sig .tc .vmem S1x1x1 .f32) (h3 : a3.IsWhole) (a4 : Memref sig .tc .vmem S1x128 .f32) (h4 : a4.IsWhole) (hc : isFirst i)
    (x : Vec F S1x1x3125x128 .f32) :
    accReset c i a2 h2 a3 h3 a4 h4 hc x = k0_pay2 x (k0_pay1 (F := F)) := by
  unfold accReset
  rw [View.read_writes_eq_canon _ _ _ (coverResetS c i a2 h2 a3 h3 a4 h4 hc x)]
  unfold runReset
  dsimp only
  sl_unfold_words
  rw [View.canon_cons_unit_zero (S := S1x128) hz2, View.readCov_cons_toLoadRect]
  simp only [View.readAt_eq_ld, h2.read_unread, View.ld_unit_zero (S := S1x1x3125x128) hz4]

/-- and in the output buffer their total. -/
theorem outReset_eq (c : Dev nD) (i : grid0.Coords) (a2 : Memref sig .tc .vmem S1x1x3125x128 .f32) (h2 : a2.IsWhole) (a3 : Memref sig .tc .vmem S1x1x1 .f32) (h3 : a3.IsWhole) (a4 : Memref sig .tc .vmem S1x128 .f32) (h4 : a4.IsWhole) (hc : isFirst i)
    (x : Vec F S1x1x3125x128 .f32) :
    outReset c i a2 h2 a3 h3 a4 h4 hc x = k0_pay3 (k0_pay2 x (k0_pay1 (F := F))) := by
  unfold outReset
  rw [View.read_writes_eq_canon _ _ _ (coverResetO c i a2 h2 a3 h3 a4 h4 hc x)]
  unfold runReset
  dsimp only
  sl_unfold_words
  rw [View.canon_unit_zero (S := S1x1x1) hz3, View.readCov_cons_toLoadRect, View.readCov_cons_toLoadRect]
  simp only [View.readAt_eq_ld, h2.read_unread, View.ld_unit_zero (S := S1x1x3125x128) hz4]

/-! ## The scratch after each point, as a chain of payloads -/

/-- The scratch after the point at position n: the payload of the point's block and, at a multiple of 5, the zero
    row, elsewhere the scratch after position n - 1. -/
def accChain (c : Dev nD) : (n : ℕ) → n < cfg0.N → Vec F S1x128 .f32
  | 0, h => k0_pay2 (iblk m c 0 ⟨0, h⟩) (k0_pay1 (F := F))
  | n + 1, h =>
    if (n + 1) % 5 = 0 then k0_pay2 (iblk m c 0 ⟨n + 1, h⟩) (k0_pay1 (F := F))
    else k0_pay2 (iblk m c 0 ⟨n + 1, h⟩) (accChain c n (Nat.lt_of_succ_lt h))

/-- The accumulation is that chain, and the output buffer holds its total. -/
theorem outsAt_eq (c : Dev nD) : ∀ (n : ℕ) (h : n < cfg0.N),
    outsAt m c n h = (k0_pay3 (accChain m c n h), accChain m c n h)
  | 0, h => by
    rw [outsAt_reset m c ⟨0, h⟩ (Nat.zero_mod _)]
    unfold firstOut
    rw [outReset_eq, accReset_eq]
    rfl
  | n + 1, h => by
    by_cases h0 : (n + 1) % 5 = 0
    · rw [outsAt_reset m c ⟨n + 1, h⟩ h0]
      unfold firstOut
      rw [outReset_eq, accReset_eq]
      simp only [accChain, if_pos h0]
    · rw [outsAt_carry m c ⟨n + 1, h⟩ h0]
      unfold nextOut
      rw [outCarry_eq, accCarry_eq]
      have ih := outsAt_eq c n (Nat.lt_of_succ_lt h)
      simp only [accChain, if_neg h0]
      have e : (outsAt m c ((⟨n + 1, h⟩ : Fin cfg0.N).val - 1) (Nat.lt_of_le_of_lt (Nat.sub_le _ _) (⟨n + 1, h⟩ : Fin cfg0.N).isLt)).2
          = accChain m c n (Nat.lt_of_succ_lt h) := by
        show (outsAt m c n _).2 = _
        rw [ih]
      rw [e]

/-! ## At the ideal values: the scratch as sums -/

section AtIdeal

open Cert.SumPayloads Cert.SumBlocks Cert.OutletSums Idealize.ShloMosaic.ValueIdx

variable (mi : (ℓ : Loc nD τ sig) → Buf (Elt Ideal) ℓ)

/-- The extended real the zero word denotes. -/
abbrev zeroR : Ideal .f32 := FloatOps.ofBits (F := Ideal) .f32 0x00000000#32

/-- The area array as launched, on core c. -/
abbrev area (c : Dev nD) : S4000000.Idx → Ideal .f32 := mi ((c : Thread nD τ).loc main_arg0)

/-- The sum of column l of the block the point at position n reads. -/
def colsum (c : Dev nD) (n : ℕ) (h : n < cfg0.N) (l : Fin 128) : Ideal .f32 :=
  ∑ r : Fin 3125, (iblk mi c 0 ⟨n, h⟩ : Vec Ideal S1x1x3125x128 .f32) (ix4 (0 : Fin 1) (0 : Fin 1) r l)

/-- Lane l of the scratch after position n: restarted from zero at a multiple of 5, else one more column sum. -/
def accAt (c : Dev nD) : (n : ℕ) → n < cfg0.N → Fin 128 → Ideal .f32
  | 0, h, l => zeroR + colsum mi c 0 h l
  | n + 1, h, l =>
    if (n + 1) % 5 = 0 then zeroR + colsum mi c (n + 1) h l
    else accAt c n (Nat.lt_of_succ_lt h) l + colsum mi c (n + 1) h l

theorem accChain_apply (c : Dev nD) : ∀ (n : ℕ) (h : n < cfg0.N) (l : Fin 128),
    accChain mi c n h (ix2 (0 : Fin 1) l) = accAt mi c n h l
  | 0, h, l => by
    show k0_pay2 (iblk mi c 0 ⟨0, h⟩) (k0_pay1 (F := Ideal)) (ix2 (0 : Fin 1) l) = zeroR + colsum mi c 0 h l
    rw [pay2_apply, pay1_apply]; rfl
  | n + 1, h, l => by
    by_cases h0 : (n + 1) % 5 = 0
    · simp only [accChain, accAt, if_pos h0]
      rw [pay2_apply, pay1_apply]; rfl
    · simp only [accChain, accAt, if_neg h0]
      rw [pay2_apply, accChain_apply c n (Nat.lt_of_succ_lt h) l]; rfl

theorem accAt_restart (c : Dev nD) (n : ℕ) (h : n < cfg0.N) (l : Fin 128) (h0 : n % 5 = 0) :
    accAt mi c n h l = zeroR + colsum mi c n h l := by
  cases n with
  | zero => rfl
  | succ k => simp only [accAt, if_pos h0]

theorem accAt_step (c : Dev nD) (n k : ℕ) (h : n < cfg0.N) (l : Fin 128) (hk : n = k + 1) (h0 : ¬n % 5 = 0) :
    accAt mi c n h l = accAt mi c k (by omega) l + colsum mi c n h l := by
  subst hk
  simp only [accAt, if_neg h0]

/-- After a core's fifth point a lane holds zero plus its five column sums, in order. -/
theorem accAt_last (c : Dev nD) (q : ℕ) (hq : 5 * q + 4 < cfg0.N) (l : Fin 128) :
    accAt mi c (5 * q + 4) hq l
      = zeroR + colsum mi c (5 * q) (by omega) l + colsum mi c (5 * q + 1) (by omega) l + colsum mi c (5 * q + 2) (by omega) l
          + colsum mi c (5 * q + 3) (by omega) l + colsum mi c (5 * q + 4) hq l := by
  rw [accAt_step mi c (5 * q + 4) (5 * q + 3) hq l (by omega) (by omega),
    accAt_step mi c (5 * q + 3) (5 * q + 2) _ l (by omega) (by omega),
    accAt_step mi c (5 * q + 2) (5 * q + 1) _ l (by omega) (by omega),
    accAt_step mi c (5 * q + 1) (5 * q) _ l (by omega) (by omega),
    accAt_restart mi c (5 * q) _ l (by omega)]

theorem flat_congr {a a' : Fin 2} {b b' : Fin 5} (ha : a = a') (hb : b = b') (r : Fin 3125) (l : Fin 128) :
    flat a b r l = flat a' b' r l := by subst ha; subst hb; rfl

/-- A column sum is a sum of entries of the area array: block (q, g) holds the entries at the row-major positions
    of (q, g, r, l). -/
theorem colsum_eq (c : Dev nD) (q : Fin 2) (g : Fin 5) (h : 5 * q.val + g.val < cfg0.N) (l : Fin 128) :
    colsum mi c (5 * q.val + g.val) h l = ∑ r : Fin 3125, area mi c (ix1 (flat q g r l)) := by
  unfold colsum
  refine Finset.sum_congr rfl fun r _ => ?_
  refine (iblk_apply mi c ⟨5 * q.val + g.val, h⟩ r l).trans ?_
  have hq := q.isLt
  have hg := g.isLt
  exact congrArg (area mi c) (congrArg ix1 (flat_congr
    (Fin.ext (by show (5 * q.val + g.val) / 5 = q.val; omega))
    (Fin.ext (by show (5 * q.val + g.val) % 5 = g.val; omega)) r l))

end AtIdeal

/-! ## The output array after the run -/

section Final

open Cert.SumPayloads Cert.SumBlocks Cert.OutletSums Idealize.ShloMosaic.ValueIdx

variable (mi : (ℓ : Loc nD τ sig) → Buf (Elt Ideal) ℓ)

theorem lt4 : 4 < cfg0.N := by rw [show cfg0.N = 10 from N_0]; decide
theorem lt9 : 9 < cfg0.N := by rw [show cfg0.N = 10 from N_0]; decide

/-- The one index of a 1 by 1 by 1 block. -/
theorem unit3 (j : S1x1x1.Idx) : j = ix3 (0 : Fin 1) (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- The two-entry output array after the run: entry q is the output buffer after core q's fifth point. -/
def outArr (c : Dev nD) : Buf (Elt Ideal) ((c : Thread nD τ).loc main_v1) := fun (i : S2x1x1.Idx) =>
  if (i 0).val = 0 then (outsAt mi c 4 lt4).1 (ix3 (0 : Fin 1) (0 : Fin 1) (0 : Fin 1))
  else (outsAt mi c 9 lt9).1 (ix3 (0 : Fin 1) (0 : Fin 1) (0 : Fin 1))

/-- The output window is written back after the fifth point of each core, into entry q of the array. -/
theorem flushed_eq (c : Dev nD) (t : Fin cfg0.N) (hf : (cfg0.win 1).flush t = true) :
    (dats mi 0 c).flushed 1 t = ((cfg0.win 1).blk t).view.read (Elt Ideal) (outArr mi c) := by
  have hN : cfg0.N = 10 := N_0
  have h5 : t.val % 5 = 4 := (flush0_1 t).mp hf
  have ht : t.val = 4 ∨ t.val = 9 := by have := t.isLt; omega
  rcases ht with h | h
  · obtain rfl : t = t0_4 := Fin.ext h
    show (cfg0.win 1).cut (grid0.coords t0_4) ((dats mi 0 c).after 1 t0_4) = _
    rw [after0_1]
    funext j
    show (outsAt mi c 4 lt4).1 j = outArr mi c (((cfg0.win 1).blk t0_4).view.emb j)
    have e0 : ((((cfg0.win 1).blk t0_4).view.emb j) 0).val = 0 := by
      show win0_1.index t0_4 0 * 1 + 1 * (j 0).val = 0
      have hj : (j 0).val < 1 := (j 0).isLt
      rw [show win0_1.index t0_4 0 = 0 from by decide +kernel]; omega
    unfold outArr
    rw [if_pos e0, unit3 j]
  · obtain rfl : t = t0_9 := Fin.ext h
    show (cfg0.win 1).cut (grid0.coords t0_9) ((dats mi 0 c).after 1 t0_9) = _
    rw [after0_1]
    funext j
    show (outsAt mi c 9 lt9).1 j = outArr mi c (((cfg0.win 1).blk t0_9).view.emb j)
    have e0 : ¬((((cfg0.win 1).blk t0_9).view.emb j) 0).val = 0 := by
      show ¬(win0_1.index t0_9 0 * 1 + 1 * (j 0).val = 0)
      rw [show win0_1.index t0_9 0 = 1 from by decide +kernel]; omega
    unfold outArr
    rw [if_neg e0, unit3 j]

/-- Those two write-backs cover the array. -/
theorem cover1 (i : S2x1x1.Idx) :
    ∃ t : Fin cfg0.N, (cfg0.win 1).flush t = true ∧ i ∈ ((cfg0.win 1).blk t).view.set := by
  have h0 : (i 0).val < 2 := (i 0).isLt
  have h1 : (i 1).val < 1 := (i 1).isLt
  have h2 : (i 2).val < 1 := (i 2).isLt
  by_cases hz : (i 0).val = 0
  · refine ⟨t0_4, (flush0_1 t0_4).mpr rfl, ?_⟩
    show i ∈ ((View.whole main_v1).slice (win0_1.rect t0_4)).set
    rw [View.set_slice_whole, Rect.mem_set_unit]
    intro a
    match a with
    | ⟨0, _⟩ => show win0_1.index t0_4 0 * win0_1.size 0 ≤ (i 0 : Nat) ∧ (i 0 : Nat) < win0_1.index t0_4 0 * win0_1.size 0 + win0_1.xsize (grid0.coords t0_4) 0
                rw [show win0_1.index t0_4 0 * win0_1.size 0 = 0 from by decide +kernel, show win0_1.xsize (grid0.coords t0_4) 0 = 1 from by decide +kernel]; omega
    | ⟨1, _⟩ => show win0_1.index t0_4 1 * win0_1.size 1 ≤ (i 1 : Nat) ∧ (i 1 : Nat) < win0_1.index t0_4 1 * win0_1.size 1 + win0_1.xsize (grid0.coords t0_4) 1
                rw [show win0_1.index t0_4 1 * win0_1.size 1 = 0 from by decide +kernel, show win0_1.xsize (grid0.coords t0_4) 1 = 1 from by decide +kernel]; omega
    | ⟨2, _⟩ => show win0_1.index t0_4 2 * win0_1.size 2 ≤ (i 2 : Nat) ∧ (i 2 : Nat) < win0_1.index t0_4 2 * win0_1.size 2 + win0_1.xsize (grid0.coords t0_4) 2
                rw [show win0_1.index t0_4 2 * win0_1.size 2 = 0 from by decide +kernel, show win0_1.xsize (grid0.coords t0_4) 2 = 1 from by decide +kernel]; omega
  · refine ⟨t0_9, (flush0_1 t0_9).mpr rfl, ?_⟩
    show i ∈ ((View.whole main_v1).slice (win0_1.rect t0_9)).set
    rw [View.set_slice_whole, Rect.mem_set_unit]
    intro a
    match a with
    | ⟨0, _⟩ => show win0_1.index t0_9 0 * win0_1.size 0 ≤ (i 0 : Nat) ∧ (i 0 : Nat) < win0_1.index t0_9 0 * win0_1.size 0 + win0_1.xsize (grid0.coords t0_9) 0
                rw [show win0_1.index t0_9 0 * win0_1.size 0 = 1 from by decide +kernel, show win0_1.xsize (grid0.coords t0_9) 0 = 1 from by decide +kernel]; omega
    | ⟨1, _⟩ => show win0_1.index t0_9 1 * win0_1.size 1 ≤ (i 1 : Nat) ∧ (i 1 : Nat) < win0_1.index t0_9 1 * win0_1.size 1 + win0_1.xsize (grid0.coords t0_9) 1
                rw [show win0_1.index t0_9 1 * win0_1.size 1 = 0 from by decide +kernel, show win0_1.xsize (grid0.coords t0_9) 1 = 1 from by decide +kernel]; omega
    | ⟨2, _⟩ => show win0_1.index t0_9 2 * win0_1.size 2 ≤ (i 2 : Nat) ∧ (i 2 : Nat) < win0_1.index t0_9 2 * win0_1.size 2 + win0_1.xsize (grid0.coords t0_9) 2
                rw [show win0_1.index t0_9 2 * win0_1.size 2 = 0 from by decide +kernel, show win0_1.xsize (grid0.coords t0_9) 2 = 1 from by decide +kernel]; omega

/-- So the output array ends holding the two cores' totals. -/
theorem final_o (c : Dev nD) : (dats mi 0 c).arrAt 1 cfg0.N = outArr mi c :=
  (dats mi 0 c).arrAt_eq_of_cover 1 (outArr mi c) (flushed_eq mi c) (cover1)

theorem colsum_at (c : Dev nD) (q : Fin 2) (g : Fin 5) (n : ℕ) (hn : n = 5 * q.val + g.val) (h : n < cfg0.N) (l : Fin 128) :
    colsum mi c n h l = ∑ r : Fin 3125, area mi c (ix1 (flat q g r l)) := by
  subst hn; exact colsum_eq mi c q g h l

/-- The output buffer after core q's fifth point: the sum over lanes, steps and rows of the core's half of the area
    array (zero plus the five column sums, lane by lane). -/
theorem total_core (c : Dev nD) (q : Fin 2) (h : 5 * q.val + 4 < cfg0.N) :
    (outsAt mi c (5 * q.val + 4) h).1 (ix3 (0 : Fin 1) (0 : Fin 1) (0 : Fin 1))
      = ∑ l : Fin 128, ∑ g : Fin 5, ∑ r : Fin 3125, area mi c (ix1 (flat q g r l)) := by
  rw [outsAt_eq]
  show k0_pay3 (accChain mi c (5 * q.val + 4) h) (ix3 (0 : Fin 1) (0 : Fin 1) (0 : Fin 1)) = _
  rw [pay3_apply]
  refine Finset.sum_congr rfl fun l _ => ?_
  rw [accChain_apply, accAt_last mi c q.val h l, Fin.sum_univ_five,
    colsum_at mi c q 0 (5 * q.val) rfl _ l, colsum_at mi c q 1 (5 * q.val + 1) rfl _ l,
    colsum_at mi c q 2 (5 * q.val + 2) rfl _ l, colsum_at mi c q 3 (5 * q.val + 3) rfl _ l,
    colsum_at mi c q 4 (5 * q.val + 4) rfl _ l]
  show Ideal.ofBits .f32 0x00000000#32 + _ + _ + _ + _ + _ = _
  rw [Ideal.ofBits_zero_f32, zero_add]

/-- The two entries of the output array add up to the sum of the whole area array. -/
theorem total_eq (c : Dev nD) :
    FloatOps.addf (F := Ideal) ((dats mi 0 c).arrAt 1 cfg0.N (ix3 (0 : Fin 2) (0 : Fin 1) (0 : Fin 1)))
        ((dats mi 0 c).arrAt 1 cfg0.N (ix3 (1 : Fin 2) (0 : Fin 1) (0 : Fin 1)))
      = ∑ j : S4000000.Idx, area mi c j := by
  rw [final_o]
  have e0 : outArr mi c (ix3 (0 : Fin 2) (0 : Fin 1) (0 : Fin 1)) = (outsAt mi c (5 * (0 : Fin 2).val + 4) lt4).1 (ix3 (0 : Fin 1) (0 : Fin 1) (0 : Fin 1)) := by
    unfold outArr; exact if_pos rfl
  have e1 : outArr mi c (ix3 (1 : Fin 2) (0 : Fin 1) (0 : Fin 1)) = (outsAt mi c (5 * (1 : Fin 2).val + 4) lt9).1 (ix3 (0 : Fin 1) (0 : Fin 1) (0 : Fin 1)) := by
    unfold outArr; exact if_neg (by decide)
  rw [e0, e1, total_core, total_core]
  show _ + _ = _
  rw [sum_regroup (area mi c), Fin.sum_univ_two]

end Final

end Cert.KernelIdeal.Sum

end
-- ==== Proof.OutletSpec.lean ====
/-
  The outlet discharge of one explicit step of a kinematic-wave channel with Green–Ampt infiltration, as a
  function of finitely many extended reals: the sum of all wetted areas (through the mean depth it gives the
  infiltration rate, hence the lateral inflow), the last three wetted areas (the three-point stencil the outlet
  node's update reads), the outlet's downstream difference, and the scalar parameters.  Every operation is the
  exact one of the extended reals; each float literal stands for its own binary value and is never evaluated.
-/
import Idealize.ShloMosaic.PureOps.Ideal

noncomputable section

namespace Cert.Outlet

open Idealize.ShloMosaic

/-- An extended real, as the idealized programs read an f32. -/
abbrev R := Ideal .f32

/-- The value a 32-bit float word denotes. -/
abbrev lit (b : BitVec 32) : R := FloatOps.ofBits (F := Ideal) .f32 b

/-- Manning's discharge of a wetted area A on a wide plane: A^(5/3) · (√slope / (n · width^(2/3))). -/
def manning (A sl man wid : R) : R :=
  FloatOps.mulf (FloatOps.hostPowf A (lit 0x3FD55555#32))
    (FloatOps.hostDivf (FloatOps.hostUnary .sqrt sl) (FloatOps.mulf man (FloatOps.hostPowf wid (lit 0x3F2AAAAB#32))))

/-- The minmod limiter of a backward difference a and a forward difference b: the one of smaller modulus where
    they agree in sign, zero elsewhere. -/
def minmod (a b : R) : R :=
  Scalar.select (FloatOps.cmpf .ogt (FloatOps.mulf a b) (lit 0x00000000#32))
    (FloatOps.mulf (FloatOps.hostUnary .sign a) (FloatOps.minimumf (FloatOps.hostAbsf a) (FloatOps.hostAbsf b)))
    (lit 0x00000000#32)

/-- The limited left state at a node's downstream face, clipped at zero. -/
def face (a dm dp : R) : R :=
  FloatOps.maximumf (FloatOps.addf a (FloatOps.mulf (lit 0x3F000000#32) (minmod dm dp))) (lit 0x00000000#32)

/-- The mean water depth over the plane: the mean wetted area over the width. -/
def head (total wid : R) : R := FloatOps.hostDivf (FloatOps.hostDivf total (lit 0x4A742400#32)) wid

/-- The Green–Ampt infiltration rate: the supply capped by the infiltration capacity, clipped at zero. -/
def infil (total theta fcum rain dt wid ks psi thetaS : R) : R :=
  FloatOps.maximumf
    (FloatOps.minimumf
      (FloatOps.addf rain (FloatOps.hostDivf (head total wid) (FloatOps.maximumf dt (lit 0x3089705F#32))))
      (FloatOps.mulf ks (FloatOps.addf (lit 0x3F800000#32)
        (FloatOps.hostDivf
          (FloatOps.mulf (FloatOps.addf psi (head total wid)) (FloatOps.maximumf (FloatOps.subf thetaS theta) (lit 0x00000000#32)))
          (FloatOps.maximumf fcum (lit 0x3089705F#32))))))
    (lit 0x00000000#32)

/-- The lateral inflow per unit length: the rainfall the soil does not take, over the width. -/
def lateral (inf rain wid : R) : R :=
  FloatOps.mulf (FloatOps.maximumf (FloatOps.subf rain inf) (lit 0x00000000#32)) wid

/-- The outlet node's discharge after the step.  a0 a1 a2 are the last three wetted areas, dOut the outlet's
    downstream difference (zero under the outflow boundary condition). -/
def outflow (qlat a0 a1 a2 dOut dt wid man sl dx : R) : R :=
  manning
    (FloatOps.maximumf
      (FloatOps.addf a2 (FloatOps.mulf dt (FloatOps.subf qlat
        (FloatOps.hostDivf
          (FloatOps.subf
            (manning (face a2 (FloatOps.subf a2 a1) dOut) sl man wid)
            (manning (face a1 (FloatOps.subf a1 a0) (FloatOps.subf a2 a1)) sl man wid))
          dx))))
      (lit 0x00000000#32))
    sl man wid

/-- The three reported numbers: the outlet discharge, the infiltration rate, the infiltrated depth. -/
def report (total a0 a1 a2 dOut theta fcum rain dt wid man sl dx ks psi thetaS : R) : Fin 3 → R :=
  ![outflow (lateral (infil total theta fcum rain dt wid ks psi thetaS) rain wid) a0 a1 a2 dOut dt wid man sl dx,
    infil total theta fcum rain dt wid ks psi thetaS,
    FloatOps.mulf (infil total theta fcum rain dt wid ks psi thetaS) dt]

end Cert.Outlet

end
-- ==== Proof.SumResult.lean ====
/-
  The kernel program's three results, at the ideal values.  After the region the later host lines compute, from the
  two entries of the output array and the launch contents of the arguments, the three reported numbers; the two
  entries add up to the sum of the area array, so the results are the specification's report of that sum, the last
  three areas, a zero outlet difference and the scalar parameters.  What the later lines compute from the buffers
  they read is taken here as a hypothesis of a fixed shape; it is proved, over arbitrary buffer contents, in a module
  of its own.
-/
import proofs.«168983_j80857054314543_2_alg».proof.Proof.SumValue
import proofs.«168983_j80857054314543_2_alg».proof.Proof.OutletSpec

set_option maxRecDepth 16384

noncomputable section

namespace Cert.KernelIdeal.Sum

open Cert.KernelIdeal Cert.KernelIdeal.Gen
open Idealize.ShloMosaic Idealize.ShloMosaic.TcCoe Idealize.ShloMosaic.ValueIdx
open Idealize.SL.Sem
open Idealize.ShloMosaic.Pipeline (Dat)

variable (mi : (ℓ : Loc nD τ sig) → Buf (Elt Ideal) ℓ) (ρ : Dev nD → PrngReg)

/-- The kernel program's three results on core c: the specification's report of the sum of the area array, the last
    three areas, a zero outlet difference, and the scalar arguments as launched. -/
def resultK (c : Dev nD) : Buf (Elt Ideal) ((c : Thread nD τ).loc main_v84) := fun (i : S3.Idx) =>
  Cert.Outlet.report (∑ j : S4000000.Idx, area mi c j)
    (area mi c (ix1 ⟨3999997, by omega⟩)) (area mi c (ix1 ⟨3999998, by omega⟩)) (area mi c (ix1 ⟨3999999, by omega⟩))
    (Cert.Outlet.lit 0x00000000#32)
    ((mi ((c : Thread nD τ).loc main_arg1) : S_.Idx → Ideal .f32) ix0)
    ((mi ((c : Thread nD τ).loc main_arg2) : S_.Idx → Ideal .f32) ix0)
    ((mi ((c : Thread nD τ).loc main_arg3) : S_.Idx → Ideal .f32) ix0)
    ((mi ((c : Thread nD τ).loc main_arg4) : S_.Idx → Ideal .f32) ix0)
    ((mi ((c : Thread nD τ).loc main_arg6) : S_.Idx → Ideal .f32) ix0)
    ((mi ((c : Thread nD τ).loc main_arg7) : S_.Idx → Ideal .f32) ix0)
    ((mi ((c : Thread nD τ).loc main_arg8) : S_.Idx → Ideal .f32) ix0)
    ((mi ((c : Thread nD τ).loc main_arg9) : S_.Idx → Ideal .f32) ix0)
    ((mi ((c : Thread nD τ).loc main_arg10) : S_.Idx → Ideal .f32) ix0)
    ((mi ((c : Thread nD τ).loc main_arg11) : S_.Idx → Ideal .f32) ix0)
    ((mi ((c : Thread nD τ).loc main_arg12) : S_.Idx → Ideal .f32) ix0)
    (i 0)

/-- What the later lines compute, over any contents W of the buffers they read: the report of the two output entries'
    sum, the last three entries of the area buffer, a zero outlet difference and the scalar buffers' entries. -/
def LaterValue : Prop := ∀ (W : Valuation τ sig (Elt Ideal)) (k : Fin 3),
  (StableHlo.after ((later (F := Ideal)).flatten) W (Proc.devRef .tc main_v84) : S3.Idx → Ideal .f32) (ix1 k)
    = Cert.Outlet.report
        (FloatOps.addf ((W (Proc.devRef .tc main_v1) : S2x1x1.Idx → Ideal .f32) (ix3 (0 : Fin 2) (0 : Fin 1) (0 : Fin 1)))
          ((W (Proc.devRef .tc main_v1) : S2x1x1.Idx → Ideal .f32) (ix3 (1 : Fin 2) (0 : Fin 1) (0 : Fin 1))))
        ((W (Proc.devRef .tc main_arg0) : S4000000.Idx → Ideal .f32) (ix1 ⟨3999997, by omega⟩))
        ((W (Proc.devRef .tc main_arg0) : S4000000.Idx → Ideal .f32) (ix1 ⟨3999998, by omega⟩))
        ((W (Proc.devRef .tc main_arg0) : S4000000.Idx → Ideal .f32) (ix1 ⟨3999999, by omega⟩))
        (Cert.Outlet.lit 0x00000000#32)
        ((W (Proc.devRef .tc main_arg1) : S_.Idx → Ideal .f32) ix0)
        ((W (Proc.devRef .tc main_arg2) : S_.Idx → Ideal .f32) ix0)
        ((W (Proc.devRef .tc main_arg3) : S_.Idx → Ideal .f32) ix0)
        ((W (Proc.devRef .tc main_arg4) : S_.Idx → Ideal .f32) ix0)
        ((W (Proc.devRef .tc main_arg6) : S_.Idx → Ideal .f32) ix0)
        ((W (Proc.devRef .tc main_arg7) : S_.Idx → Ideal .f32) ix0)
        ((W (Proc.devRef .tc main_arg8) : S_.Idx → Ideal .f32) ix0)
        ((W (Proc.devRef .tc main_arg9) : S_.Idx → Ideal .f32) ix0)
        ((W (Proc.devRef .tc main_arg10) : S_.Idx → Ideal .f32) ix0)
        ((W (Proc.devRef .tc main_arg11) : S_.Idx → Ideal .f32) ix0)
        ((W (Proc.devRef .tc main_arg12) : S_.Idx → Ideal .f32) ix0)
        k

/-- After the region the result buffer holds the kernel program's three results: the later lines read the output
    array at what the region left (whose two entries add up to the area array's sum) and each argument as launched. -/
theorem tail_result_of (hl : LaterValue) (c : Dev nD) :
    Pipeline.afterTail₀ cfgs (dats mi) 0 (V0 mi) later c main_v84 = resultK mi c := by
  have key : ∀ (W : Valuation τ sig (Elt Ideal)),
      W = Pipeline.withArrays (cfgs (0 : Fin 1)).spec c (V0 mi c) (fun w => (dats mi 0 c).arrAt w (cfgs (0 : Fin 1)).N) →
      StableHlo.after ((later (F := Ideal)).flatten) W (Proc.devRef .tc main_v84) = resultK mi c := by
    intro W hW
    funext i
    obtain ⟨k, rfl⟩ : ∃ k : Fin 3, i = ix1 k := ⟨i 0, eq_ix1 i⟩
    refine (hl W k).trans ?_
    have e1 : W (Proc.devRef .tc main_v1) = (dats mi 0 c).arrAt 1 cfg0.N := by
      rw [hW]; exact Pipeline.withArrays_arr spec0 launch0.win.arr_inj c _ _ 1
    have ea : ∀ b ∈ args, W (Proc.devRef .tc b) = mi ((c : Thread nD τ).loc b) := by
      intro b hb
      rw [hW]
      exact (Pipeline.withArrays_of_ne spec0 c (V0 mi c) _ b (fun w => by
        fin_cases w
        · exact fun e => args_ne0 b hb e.symm
        · exact fun e => args_ne1 b hb e.symm)).trans (V_arg mi c b (args_kept b hb) (args_ne0 b hb))
    rw [e1, ea main_arg0 (by decide), ea main_arg1 (by decide), ea main_arg2 (by decide), ea main_arg3 (by decide),
      ea main_arg4 (by decide), ea main_arg6 (by decide), ea main_arg7 (by decide), ea main_arg8 (by decide),
      ea main_arg9 (by decide), ea main_arg10 (by decide), ea main_arg11 (by decide), ea main_arg12 (by decide)]
    rw [total_eq]
    rfl
  exact key _ rfl

/-- The frame run's post read at the result buffer and at the arguments. -/
theorem post_result_of (hl : LaterValue) (st : PUnit × MemSt nD τ sig (Elt Ideal))
    (h : Pipeline.FramePost cfgs (dats mi) 0 (Pipeline.afterTail₀ cfgs (dats mi) 0 (V0 mi) later) st) (c : Dev nD) :
    st.2.mem ((c.tc : Thread nD τ).loc main_v84) = resultK mi c :=
  ((h c).2 main_v84 (Pipeline.mem_restRefs_of main_v84 (by decide) (by decide))).trans (tail_result_of mi hl c)

/-- The kernel program's run, read: the result buffer at the three results, every argument as launched. -/
theorem result_run_of (hl : LaterValue) : θ_run defs (onTc (τ := τ) (main (F := Ideal))) ⟨mi, fun _ => 0, ρ⟩ (fun r => ∀ c : Dev nD,
      r.2.mem ((c.tc : Thread nD τ).loc main_v84) = resultK mi c
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6)
      ∧ r.2.mem ((c.tc : Thread nD τ).loc main_arg7) = mi ((c.tc : Thread nD τ).loc main_arg7)
      ∧ r.2.mem ((c.tc : Thread nD τ).loc main_arg8) = mi ((c.tc : Thread nD τ).loc main_arg8)
      ∧ r.2.mem ((c.tc : Thread nD τ).loc main_arg9) = mi ((c.tc : Thread nD τ).loc main_arg9)
      ∧ r.2.mem ((c.tc : Thread nD τ).loc main_arg10) = mi ((c.tc : Thread nD τ).loc main_arg10)
      ∧ r.2.mem ((c.tc : Thread nD τ).loc main_arg11) = mi ((c.tc : Thread nD τ).loc main_arg11)
      ∧ r.2.mem ((c.tc : Thread nD τ).loc main_arg12) = mi ((c.tc : Thread nD τ).loc main_arg12)
      ∧ r.2.mem ((c.tc : Thread nD τ).loc main_arg13) = mi ((c.tc : Thread nD τ).loc main_arg13)) :=
  (θ_run defs _ _).mono (fun st h c => ⟨post_result_of mi hl st h c, post_args mi st h c⟩) (run_main mi ρ)

end Cert.KernelIdeal.Sum

end
-- ==== Proof.LibConcat3.lean ====
/-
  Small concatenations and the reshape of a one-entry array to a scalar, read at an index, for any element type:
  one entry put in front of or behind an array, and three one-entry arrays laid end to end.
-/
import Idealize.ShloMosaic.Lib.Pipeline.Value
import Idealize.ShloMosaic.Lib.ValueIdx

noncomputable section

namespace Cert.LibConcat3

open Idealize.ShloMosaic Idealize.ShloMosaic.ValueIdx

variable {α : Type}

/-- One entry put in front of an array of n entries: past the first position, entry j of the result is entry
    j - 1 of the array. -/
theorem prepend_apply {n m : Nat} (u : (⟨1, ![1]⟩ : Shape).Idx → α) (x : (⟨1, ![n]⟩ : Shape).Idx → α)
    (h : Shape.Concatenates [⟨1, ![1]⟩, ⟨1, ![n]⟩] ⟨1, ![m]⟩ 0) (j : (⟨1, ![m]⟩ : Shape).Idx)
    (i : (⟨1, ![n]⟩ : Shape).Idx) (hji : (i 0).val + 1 = (j 0).val) :
    concatenate ⟨1, ![m]⟩ 0 [⟨⟨1, ![1]⟩, u⟩, ⟨⟨1, ![n]⟩, x⟩] h j = x i :=
  concatenate_pair_apply_right 0 u x h j rfl rfl i
    (fun b hb => match b, hb with | ⟨0, _⟩, hb => absurd rfl hb) hji

/-- One entry put behind an array of n entries: below n, entry j of the result is entry j of the array. -/
theorem append_apply_left {n m : Nat} (x : (⟨1, ![n]⟩ : Shape).Idx → α) (u : (⟨1, ![1]⟩ : Shape).Idx → α)
    (h : Shape.Concatenates [⟨1, ![n]⟩, ⟨1, ![1]⟩] ⟨1, ![m]⟩ 0) (j : (⟨1, ![m]⟩ : Shape).Idx)
    (i : (⟨1, ![n]⟩ : Shape).Idx) (hji : (i 0).val = (j 0).val) :
    concatenate ⟨1, ![m]⟩ 0 [⟨⟨1, ![n]⟩, x⟩, ⟨⟨1, ![1]⟩, u⟩] h j = x i :=
  concatenate_pair_apply_left 0 x u h j rfl i (fun b => match b with | ⟨0, _⟩ => hji)

/-- One entry put behind an array of n entries: entry n of the result is the added entry. -/
theorem append_apply_right {n m : Nat} (x : (⟨1, ![n]⟩ : Shape).Idx → α) (u : (⟨1, ![1]⟩ : Shape).Idx → α)
    (h : Shape.Concatenates [⟨1, ![n]⟩, ⟨1, ![1]⟩] ⟨1, ![m]⟩ 0) (j : (⟨1, ![m]⟩ : Shape).Idx)
    (hj : 0 + n = (j 0).val) :
    concatenate ⟨1, ![m]⟩ 0 [⟨⟨1, ![n]⟩, x⟩, ⟨⟨1, ![1]⟩, u⟩] h j = u (ix1 ⟨0, Nat.one_pos⟩) :=
  concatenate_pair_apply_right 0 x u h j rfl rfl (ix1 ⟨0, Nat.one_pos⟩)
    (fun b hb => match b, hb with | ⟨0, _⟩, hb => absurd rfl hb) hj

/-- Three one-entry arrays laid end to end: entry 0 of the result is the first one's entry. -/
theorem cat3_apply0 (p0 p1 p2 : (⟨1, ![1]⟩ : Shape).Idx → α)
    (h : Shape.Concatenates [⟨1, ![1]⟩, ⟨1, ![1]⟩, ⟨1, ![1]⟩] ⟨1, ![3]⟩ 0) (h0 : 0 < 3) :
    concatenate ⟨1, ![3]⟩ 0 [⟨⟨1, ![1]⟩, p0⟩, ⟨⟨1, ![1]⟩, p1⟩, ⟨⟨1, ![1]⟩, p2⟩] h (ix1 ⟨0, h0⟩)
      = p0 (ix1 ⟨0, Nat.one_pos⟩) :=
  concatenate_apply_piece (t := ⟨1, ![3]⟩) 0 [⟨⟨1, ![1]⟩, p0⟩, ⟨⟨1, ![1]⟩, p1⟩, ⟨⟨1, ![1]⟩, p2⟩] h (ix1 ⟨0, h0⟩) 0
    (by show (0 : Nat) < 3; omega) ⟨1, ![1]⟩ p0 rfl rfl 0 rfl
    (ix1 ⟨0, Nat.one_pos⟩) (fun b hb => match b, hb with | ⟨0, _⟩, hb => absurd rfl hb) rfl

/-- Three one-entry arrays laid end to end: entry 1 of the result is the second one's entry. -/
theorem cat3_apply1 (p0 p1 p2 : (⟨1, ![1]⟩ : Shape).Idx → α)
    (h : Shape.Concatenates [⟨1, ![1]⟩, ⟨1, ![1]⟩, ⟨1, ![1]⟩] ⟨1, ![3]⟩ 0) (h1 : 1 < 3) :
    concatenate ⟨1, ![3]⟩ 0 [⟨⟨1, ![1]⟩, p0⟩, ⟨⟨1, ![1]⟩, p1⟩, ⟨⟨1, ![1]⟩, p2⟩] h (ix1 ⟨1, h1⟩)
      = p1 (ix1 ⟨0, Nat.one_pos⟩) :=
  concatenate_apply_piece (t := ⟨1, ![3]⟩) 0 [⟨⟨1, ![1]⟩, p0⟩, ⟨⟨1, ![1]⟩, p1⟩, ⟨⟨1, ![1]⟩, p2⟩] h (ix1 ⟨1, h1⟩) 1
    (by show (1 : Nat) < 3; omega) ⟨1, ![1]⟩ p1 rfl rfl 1 rfl
    (ix1 ⟨0, Nat.one_pos⟩) (fun b hb => match b, hb with | ⟨0, _⟩, hb => absurd rfl hb) rfl

/-- Three one-entry arrays laid end to end: entry 2 of the result is the third one's entry. -/
theorem cat3_apply2 (p0 p1 p2 : (⟨1, ![1]⟩ : Shape).Idx → α)
    (h : Shape.Concatenates [⟨1, ![1]⟩, ⟨1, ![1]⟩, ⟨1, ![1]⟩] ⟨1, ![3]⟩ 0) (h2 : 2 < 3) :
    concatenate ⟨1, ![3]⟩ 0 [⟨⟨1, ![1]⟩, p0⟩, ⟨⟨1, ![1]⟩, p1⟩, ⟨⟨1, ![1]⟩, p2⟩] h (ix1 ⟨2, h2⟩)
      = p2 (ix1 ⟨0, Nat.one_pos⟩) :=
  concatenate_apply_piece (t := ⟨1, ![3]⟩) 0 [⟨⟨1, ![1]⟩, p0⟩, ⟨⟨1, ![1]⟩, p1⟩, ⟨⟨1, ![1]⟩, p2⟩] h (ix1 ⟨2, h2⟩) 2
    (by show (2 : Nat) < 3; omega) ⟨1, ![1]⟩ p2 rfl rfl 2 rfl
    (ix1 ⟨0, Nat.one_pos⟩) (fun b hb => match b, hb with | ⟨0, _⟩, hb => absurd rfl hb) rfl

/-- Entry 0 of a vector of three. -/
theorem vec3_0 {β : Type} (a b c : β) (h0 : 0 < 3) : (![a, b, c] : Fin 3 → β) ⟨0, h0⟩ = a := rfl
/-- Entry 1 of a vector of three. -/
theorem vec3_1 {β : Type} (a b c : β) (h1 : 1 < 3) : (![a, b, c] : Fin 3 → β) ⟨1, h1⟩ = b := rfl
/-- Entry 2 of a vector of three. -/
theorem vec3_2 {β : Type} (a b c : β) (h2 : 2 < 3) : (![a, b, c] : Fin 3 → β) ⟨2, h2⟩ = c := rfl

/-- Three one-entry arrays laid end to end: entry k of the result is the entry of the k-th one. -/
theorem cat3_apply (p0 p1 p2 : (⟨1, ![1]⟩ : Shape).Idx → α)
    (h : Shape.Concatenates [⟨1, ![1]⟩, ⟨1, ![1]⟩, ⟨1, ![1]⟩] ⟨1, ![3]⟩ 0) (k : Fin 3) :
    concatenate ⟨1, ![3]⟩ 0 [⟨⟨1, ![1]⟩, p0⟩, ⟨⟨1, ![1]⟩, p1⟩, ⟨⟨1, ![1]⟩, p2⟩] h (ix1 k)
      = (![p0, p1, p2] : Fin 3 → (⟨1, ![1]⟩ : Shape).Idx → α) k (ix1 ⟨0, Nat.one_pos⟩) :=
  match k with
  | ⟨0, h0⟩ => cat3_apply0 p0 p1 p2 h h0
  | ⟨1, h1⟩ => cat3_apply1 p0 p1 p2 h h1
  | ⟨2, h2⟩ => cat3_apply2 p0 p1 p2 h h2

/-- A one-entry array reshaped to a scalar is its entry. -/
theorem scalar_of_unit (v : (⟨1, ![1]⟩ : Shape).Idx → α) (h : (⟨1, ![1]⟩ : Shape).ShapeCasts ⟨0, ![]⟩)
    (j : (⟨0, ![]⟩ : Shape).Idx) :
    shapeCast ⟨0, ![]⟩ v h j = v (ix1 ⟨0, Nat.one_pos⟩) :=
  (shapeCast_dropUnit_apply ![] v h j).trans
    (congrArg v (funext fun a => match a with | ⟨0, _⟩ => rfl))

/-- A one-entry array of rank three reshaped to a scalar is its entry. -/
theorem scalar_of_unit3 (v : (⟨3, ![1, 1, 1]⟩ : Shape).Idx → α)
    (h : (⟨3, ![1, 1, 1]⟩ : Shape).ShapeCasts ⟨0, ![]⟩) (j : (⟨0, ![]⟩ : Shape).Idx) :
    shapeCast ⟨0, ![]⟩ v h j = v (ix3 (0 : Fin 1) (0 : Fin 1) (0 : Fin 1)) := by
  refine shapeCast_apply v h j (ix3 (0 : Fin 1) (0 : Fin 1) (0 : Fin 1)) ?_
  rw [Shape.rowMajor_val_three]
  rfl

end Cert.LibConcat3

end
-- ==== Proof.SumLater.lean ====
/-
  The host operations of the kernel program after its kernel region, read at the three entries of the result.
  From the two partial sums the region leaves and the last three wetted areas they compute the same report as the
  outlet specification, with a zero downstream difference at the outlet.
-/
import proofs.«168983_j80857054314543_2_alg».proof.Proof.Gen.KernelIdeal.Launch
import proofs.«168983_j80857054314543_2_alg».proof.Proof.OutletSpec
import proofs.«168983_j80857054314543_2_alg».proof.Proof.LibConcat3
import Idealize.ShloMosaic.Lib.StableHlo.Run
import Idealize.ShloMosaic.Lib.IdealHost

noncomputable section

namespace Cert.SumLater

open Cert.KernelIdeal Cert.KernelIdeal.Gen Idealize.ShloMosaic Idealize.ShloMosaic.TcCoe Idealize.SL.Sem Idealize.ShloMosaic.StableHlo Idealize.ShloMosaic.ValueIdx Cert.LibConcat3

section General
variable {τ : Topo} {sig : RefSig} {Val : EltTy → Type}

/-- An operation of three literal operands whose function reads its operands one by one: its result over each
    operand's contents at its own reference. -/
theorem nary3_result {x a b y : Ref sig .tc}
    (f : ((k : Fin 3) → ((![x, a, b] : Fin 3 → Ref sig .tc) k).ty.Contents Val) → y.ty.Contents Val) (hxs hy)
    (F : Valuation τ sig Val)
    (g : x.ty.Contents Val → a.ty.Contents Val → b.ty.Contents Val → y.ty.Contents Val)
    (hg : ∀ u, f u = g (u 0) (u 1) (u 2)) :
    (nary (τ := τ) ![x, a, b] y f hxs hy).result F (Proc.devRef .tc y)
      = g (F (Proc.devRef .tc x)) (F (Proc.devRef .tc a)) (F (Proc.devRef .tc b)) := by
  rw [nary_result, hg]
  rfl

variable {α : Type}

/-- One entry of an array, cut out and reshaped to a scalar, is that entry. -/
theorem unit_slice_scalar {n : Nat} (x : (⟨1, ![n]⟩ : Shape).Idx → α) (off : Nat) (hoff : off < n)
    (hs : (⟨1, ![n]⟩ : Shape).Slices ![off] ⟨1, ![1]⟩) (hc : (⟨1, ![1]⟩ : Shape).ShapeCasts ⟨0, ![]⟩)
    (j : (⟨0, ![]⟩ : Shape).Idx) :
    shapeCast ⟨0, ![]⟩ (extractStridedSlice ⟨1, ![1]⟩ ![off] x hs) hc j = x (ix1 ⟨off, hoff⟩) :=
  (scalar_of_unit _ hc j).trans
    (extractStridedSlice_apply ![off] x hs (ix1 ⟨0, Nat.one_pos⟩) (ix1 ⟨off, hoff⟩)
      (fun a => match a with | ⟨0, _⟩ => by show off = off + 0; omega))

/-- One entry of a stack of two one-entry matrices, cut out and reshaped to a scalar, is that entry. -/
theorem unit_slice3_scalar (x : (⟨3, ![2, 1, 1]⟩ : Shape).Idx → α) (g : Fin 2)
    (hs : (⟨3, ![2, 1, 1]⟩ : Shape).Slices ![g.val, 0, 0] ⟨3, ![1, 1, 1]⟩)
    (hc : (⟨3, ![1, 1, 1]⟩ : Shape).ShapeCasts ⟨0, ![]⟩) (j : (⟨0, ![]⟩ : Shape).Idx) :
    shapeCast ⟨0, ![]⟩ (extractStridedSlice ⟨3, ![1, 1, 1]⟩ ![g.val, 0, 0] x hs) hc j
      = x (ix3 g (0 : Fin 1) (0 : Fin 1)) :=
  (scalar_of_unit3 _ hc j).trans
    (extractStridedSlice_apply ![g.val, 0, 0] x hs (ix3 (0 : Fin 1) (0 : Fin 1) (0 : Fin 1)) (ix3 g (0 : Fin 1) (0 : Fin 1))
      (fun a => match a with
        | ⟨0, _⟩ => by show g.val = g.val + 0; omega
        | ⟨1, _⟩ => rfl
        | ⟨2, _⟩ => rfl))

end General

/-! ## The kernel program's later lines -/

/-- The host operations after the kernel region, stretch by stretch. -/
abbrev later : List (List (HloOp τ sig (Elt Ideal))) := [hostOps1, hostOps1_1, hostOps1_2, hostOps1_3, hostOps1_4]

set_option maxHeartbeats 4000000 in
/-- What the later lines leave in the result, entry by entry, from any contents of the buffers before them: the
    report of the specification over the sum of the two partial sums, the last three wetted areas, a zero
    downstream difference at the outlet, and the scalar arguments. -/
theorem later_value (W : Valuation τ sig (Elt Ideal)) (k : Fin 3) :
    (StableHlo.after (later.flatten) W (Proc.devRef .tc main_v84) : S3.Idx → Ideal .f32) (ix1 k)
      = Cert.Outlet.report
          (FloatOps.addf
            ((W (Proc.devRef .tc main_v1) : S2x1x1.Idx → Ideal .f32) (ix3 (0 : Fin 2) (0 : Fin 1) (0 : Fin 1)))
            ((W (Proc.devRef .tc main_v1) : S2x1x1.Idx → Ideal .f32) (ix3 (1 : Fin 2) (0 : Fin 1) (0 : Fin 1))))
          ((W (Proc.devRef .tc main_arg0) : S4000000.Idx → Ideal .f32) (ix1 ⟨3999997, by omega⟩))
          ((W (Proc.devRef .tc main_arg0) : S4000000.Idx → Ideal .f32) (ix1 ⟨3999998, by omega⟩))
          ((W (Proc.devRef .tc main_arg0) : S4000000.Idx → Ideal .f32) (ix1 ⟨3999999, by omega⟩))
          (Cert.Outlet.lit 0x00000000#32)
          ((W (Proc.devRef .tc main_arg1) : S_.Idx → Ideal .f32) ix0)
          ((W (Proc.devRef .tc main_arg2) : S_.Idx → Ideal .f32) ix0)
          ((W (Proc.devRef .tc main_arg3) : S_.Idx → Ideal .f32) ix0)
          ((W (Proc.devRef .tc main_arg4) : S_.Idx → Ideal .f32) ix0)
          ((W (Proc.devRef .tc main_arg6) : S_.Idx → Ideal .f32) ix0)
          ((W (Proc.devRef .tc main_arg7) : S_.Idx → Ideal .f32) ix0)
          ((W (Proc.devRef .tc main_arg8) : S_.Idx → Ideal .f32) ix0)
          ((W (Proc.devRef .tc main_arg9) : S_.Idx → Ideal .f32) ix0)
          ((W (Proc.devRef .tc main_arg10) : S_.Idx → Ideal .f32) ix0)
          ((W (Proc.devRef .tc main_arg11) : S_.Idx → Ideal .f32) ix0)
          ((W (Proc.devRef .tc main_arg12) : S_.Idx → Ideal .f32) ix0) k := by
  -- the operations as one list, the fold opened, the last operation read over its three operands
  simp only [later, hostOps1, hostOps1_1, hostOps1_2, hostOps1_3, hostOps1_4, List.flatten_cons, List.flatten_nil,
    List.append_nil, List.cons_append, List.nil_append]
  simp only [after_cons, after_nil]
  refine (congrFun (nary3_result (x := main_v81) (a := main_v82) (b := main_v83) (y := main_v84) _ _ _ _
    (fun p q r => concatenate S3 0 [⟨S1, p⟩, ⟨S1, q⟩, ⟨S1, r⟩] concatenates_S1_S1_S1_S3_d0) (fun u => rfl)) (ix1 k)).trans ?_
  refine (cat3_apply _ _ _ _ k).trans ?_
  -- every other operation's result, composed
  after_results_simp
  -- the five entries the lines cut out of the two arrays, each named and read
  generalize hP : (fun i => shapeCast _ (extractStridedSlice (s := S2x1x1) S1x1x1 ![0, 0, 0] (W (Proc.devRef .tc main_v1)) _) _ i) = fP
  generalize hQ : (fun i => shapeCast _ (extractStridedSlice (s := S2x1x1) S1x1x1 ![1, 0, 0] (W (Proc.devRef .tc main_v1)) _) _ i) = fQ
  generalize hA : (fun i => shapeCast _ (extractStridedSlice (s := S4000000) S1 ![3999997] (W (Proc.devRef .tc main_arg0)) _) _ i) = fA
  generalize hB : (fun i => shapeCast _ (extractStridedSlice (s := S4000000) S1 ![3999998] (W (Proc.devRef .tc main_arg0)) _) _ i) = fB
  generalize hC : (fun i => shapeCast _ (extractStridedSlice (s := S4000000) S1 ![3999999] (W (Proc.devRef .tc main_arg0)) _) _ i) = fC
  have eP : fP ix0 = (W (Proc.devRef .tc main_v1) : S2x1x1.Idx → Ideal .f32) (ix3 (0 : Fin 2) (0 : Fin 1) (0 : Fin 1)) := by
    rw [← hP]; exact unit_slice3_scalar _ (0 : Fin 2) _ _ ix0
  have eQ : fQ ix0 = (W (Proc.devRef .tc main_v1) : S2x1x1.Idx → Ideal .f32) (ix3 (1 : Fin 2) (0 : Fin 1) (0 : Fin 1)) := by
    rw [← hQ]; exact unit_slice3_scalar _ (1 : Fin 2) _ _ ix0
  have eA : fA ix0 = (W (Proc.devRef .tc main_arg0) : S4000000.Idx → Ideal .f32) (ix1 ⟨3999997, by omega⟩) := by
    rw [← hA]; exact unit_slice_scalar _ 3999997 (by omega) _ _ ix0
  have eB : fB ix0 = (W (Proc.devRef .tc main_arg0) : S4000000.Idx → Ideal .f32) (ix1 ⟨3999998, by omega⟩) := by
    rw [← hB]; exact unit_slice_scalar _ 3999998 (by omega) _ _ ix0
  have eC : fC ix0 = (W (Proc.devRef .tc main_arg0) : S4000000.Idx → Ideal .f32) (ix1 ⟨3999999, by omega⟩) := by
    rw [← hC]; exact unit_slice_scalar _ 3999999 (by omega) _ _ ix0
  rw [← eP, ← eQ, ← eA, ← eB, ← eC]
  -- entry by entry: the piece of the concatenation, the scalar it broadcasts, and the specification unfolded
  match k with
  | ⟨0, h0⟩ =>
    refine (congrFun (vec3_0 _ _ _ h0) _).trans ?_
    refine (broadcastInDim_scalar_apply _ _ _).trans ?_
    rfl
  | ⟨1, h1⟩ =>
    refine (congrFun (vec3_1 _ _ _ h1) _).trans ?_
    refine (broadcastInDim_scalar_apply _ _ _).trans ?_
    rfl
  | ⟨2, h2⟩ =>
    refine (congrFun (vec3_2 _ _ _ h2) _).trans ?_
    refine (broadcastInDim_scalar_apply _ _ _).trans ?_
    rfl

end Cert.SumLater

end
-- ==== Proof.RefOutlet.lean ====
/-
  The reference program read at the three entries of its result.  The outlet discharge is the updated discharge
  at the last node; through the three-point stencil it reads the wetted areas of the last three nodes only.  Each
  intermediate array of the reference is read at the one or two indices the outlet needs and identified with the
  matching function of the outlet specification.
-/
import proofs.«168983_j80857054314543_2_alg».proof.Proof.Gen.ReferenceIdeal.Read
import proofs.«168983_j80857054314543_2_alg».proof.Proof.OutletSpec
import proofs.«168983_j80857054314543_2_alg».proof.Proof.LibConcat3

noncomputable section

namespace Cert.RefOutlet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.LibConcat3

/-- The array of wetted areas, at the extended reals. -/
abbrev Arr : Type := (⟨S4000000, .f32⟩ : BufTy).Contents (Elt Ideal)
/-- A scalar argument, at the extended reals. -/
abbrev Sc : Type := (⟨S_, .f32⟩ : BufTy).Contents (Elt Ideal)

/-! ## The last three nodes -/

/-- Node N - 3. -/
abbrev nA : Fin 4000000 := ⟨3999997, by omega⟩
/-- Node N - 2. -/
abbrev nB : Fin 4000000 := ⟨3999998, by omega⟩
/-- Node N - 1, the outlet. -/
abbrev nC : Fin 4000000 := ⟨3999999, by omega⟩

/-! ## The two difference arrays -/

/-- The array with its first entry repeated in front, past the first position. -/
theorem prepended_apply (x0 : Arr) (j : S4000001.Idx) (i : S4000000.Idx) (hji : (i 0).val + 1 = (j 0).val) :
    val_main_call0_v0 (F := Ideal) x0 j = x0 i :=
  prepend_apply _ x0 _ j i hji

/-- The array with its last entry repeated behind, below the array's length. -/
theorem appended_apply_left (x0 : Arr) (j : S4000001.Idx) (i : S4000000.Idx) (hji : (i 0).val = (j 0).val) :
    val_main_call1_v0 (F := Ideal) x0 j = x0 i :=
  append_apply_left x0 _ _ j i hji

/-- The array with its last entry repeated behind, at the added position: the last entry again. -/
theorem appended_apply_right (x0 : Arr) (j : S4000001.Idx) (hj : 0 + 4000000 = (j 0).val) :
    val_main_call1_v0 (F := Ideal) x0 j = x0 (ix1 nC) := by
  refine (append_apply_right x0 _ _ j hj).trans ?_
  rw [val_main_v22_apply]
  exact congrArg x0 (funext fun a => match a with | ⟨0, _⟩ => rfl)

/-- The backward difference at a node i past the first: A i - A (i - 1). -/
theorem dAm_apply (x0 : Arr) (i p : S4000000.Idx) (h : (p 0).val + 1 = (i 0).val) :
    val_main_v21 (F := Ideal) x0 i = (FloatOps.subf (x0 i) (x0 p) : Outlet.R) := by
  have e1 : val_main_call0_v0 (F := Ideal) x0 (idx_main_call0_v1 i) = x0 i :=
    prepended_apply x0 _ i (by show (i 0).val + 1 = 1 + (i 0).val; omega)
  have e2 : val_main_call0_v0 (F := Ideal) x0 (idx_main_call0_v2 i) = x0 p :=
    prepended_apply x0 _ p (by show (p 0).val + 1 = (i 0).val; exact h)
  rw [val_main_v21_apply, val_main_call0_v1_apply, val_main_call0_v2_apply, e1, e2]

/-- The forward difference at a node i before the last: A (i + 1) - A i. -/
theorem dAp_apply (x0 : Arr) (i q : S4000000.Idx) (h : (i 0).val + 1 = (q 0).val) :
    val_main_v23 (F := Ideal) x0 i = (FloatOps.subf (x0 q) (x0 i) : Outlet.R) := by
  have e1 : val_main_call1_v0 (F := Ideal) x0 (idx_main_call1_v1 i) = x0 q :=
    appended_apply_left x0 _ q (by show (q 0).val = 1 + (i 0).val; omega)
  have e2 : val_main_call1_v0 (F := Ideal) x0 (idx_main_call1_v2 i) = x0 i :=
    appended_apply_left x0 _ i (by show (i 0).val = (i 0).val; rfl)
  rw [val_main_v23_apply, val_main_call1_v1_apply, val_main_call1_v2_apply, e1, e2]

/-- The forward difference at the last node: the repeated last entry less the last entry. -/
theorem dAp_last (x0 : Arr) :
    val_main_v23 (F := Ideal) x0 (ix1 nC) = (FloatOps.subf (x0 (ix1 nC)) (x0 (ix1 nC)) : Outlet.R) := by
  have e1 : val_main_call1_v0 (F := Ideal) x0 (idx_main_call1_v1 (ix1 nC)) = x0 (ix1 nC) :=
    appended_apply_right x0 _ (by show 0 + 4000000 = 1 + 3999999; rfl)
  have e2 : val_main_call1_v0 (F := Ideal) x0 (idx_main_call1_v2 (ix1 nC)) = x0 (ix1 nC) :=
    appended_apply_left x0 _ (ix1 nC) (by show (3999999 : Nat) = 3999999; rfl)
  rw [val_main_v23_apply, val_main_call1_v1_apply, val_main_call1_v2_apply, e1, e2]

/-! ## The limited slope, the face state and the face discharge, at any node -/

/-- The limited slope is the minmod of the two differences. -/
theorem slope_apply (x0 : Arr) (i : S4000000.Idx) :
    val_main_v32 (F := Ideal) x0 i
      = Outlet.minmod (val_main_v21 (F := Ideal) x0 i) (val_main_v23 (F := Ideal) x0 i) := by
  rw [val_main_v32_apply, val_main_v26_apply, val_main_v24_apply, val_main_v25_apply, val_main_cst_7_apply,
    val_main_v31_apply, val_main_v27_apply, val_main_v30_apply, val_main_v28_apply, val_main_v29_apply,
    val_main_call2_v1_apply, val_main_call2_v0_apply, val_main_cst_8_apply] <;> rfl

/-- The face state is the limited left state of the node. -/
theorem aface_apply (x0 : Arr) (i : S4000000.Idx) :
    val_main_v37 (F := Ideal) x0 i
      = Outlet.face (x0 i) (val_main_v21 (F := Ideal) x0 i) (val_main_v23 (F := Ideal) x0 i) := by
  rw [val_main_v37_apply, val_main_v35_apply, val_main_v34_apply, val_main_v33_apply, val_main_cst_9_apply,
    val_main_v36_apply, val_main_cst_10_apply, slope_apply] <;> rfl

/-- The face discharge is Manning's discharge of the face state. -/
theorem qface_apply (x0 : Arr) (x6 x7 x8 : Sc) (i : S4000000.Idx) :
    val_main_v45 (F := Ideal) x0 x6 x7 x8 i
      = Outlet.manning (val_main_v37 (F := Ideal) x0 i) (x8 ix0) (x7 ix0) (x6 ix0) := by
  rw [val_main_v45_apply, val_main_v39_apply, val_main_v38_apply, val_main_cst_11_apply, val_main_v44_apply,
    val_main_v43_apply, val_main_v40_apply, val_main_v42_apply, val_main_v41_apply, val_main_cst_12_apply] <;> rfl

/-- The inflow of the last node is the face discharge of the node before it. -/
theorem fin_last (x0 : Arr) (x6 x7 x8 : Sc) :
    val_main_v48 (F := Ideal) x0 x6 x7 x8 (ix1 nC) = val_main_v45 (F := Ideal) x0 x6 x7 x8 (ix1 nB) := by
  have e : val_main_v48 (F := Ideal) x0 x6 x7 x8 (ix1 nC)
      = val_main_v47 (F := Ideal) x0 x6 x7 x8 (ix1 (⟨3999998, by omega⟩ : Fin 3999999)) :=
    prepend_apply _ _ _ (ix1 nC) (ix1 (⟨3999998, by omega⟩ : Fin 3999999)) (by show 3999998 + 1 = 3999999; rfl)
  rw [e, val_main_v47_apply]
  exact congrArg _ (funext fun a => match a with | ⟨0, _⟩ => rfl)

/-! ## The scalar state: the head, the infiltration rate, the lateral inflow -/

/-- The mean depth over the plane. -/
theorem head_eq (x0 : Arr) (x6 : Sc) :
    val_main_v2 (F := Ideal) x0 x6 ix0
      = Outlet.head (Outlet.lit 0x00000000#32 + ∑ j : S4000000.Idx, x0 j) (x6 ix0) := by
  rw [val_main_v2_apply, val_main_v1_apply, val_main_v0_apply, val_main_cst_apply, val_main_cst_0_apply] <;> rfl

/-- The infiltration rate. -/
theorem infil_eq (x0 : Arr) (x1 x2 x3 x4 x6 x10 x11 x12 : Sc) :
    val_main_v15 (F := Ideal) x0 x1 x2 x3 x4 x6 x10 x11 x12 ix0
      = Outlet.infil (Outlet.lit 0x00000000#32 + ∑ j : S4000000.Idx, x0 j)
          (x1 ix0) (x2 ix0) (x3 ix0) (x4 ix0) (x6 ix0) (x10 ix0) (x11 ix0) (x12 ix0) := by
  rw [val_main_v15_apply, val_main_cst_5_apply, val_main_v14_apply, val_main_v13_apply, val_main_v12_apply,
    val_main_v11_apply, val_main_cst_4_apply, val_main_v10_apply, val_main_v9_apply, val_main_cst_3_apply,
    val_main_v8_apply, val_main_v7_apply, val_main_cst_2_apply, val_main_v6_apply, val_main_v5_apply,
    val_main_v4_apply, val_main_cst_1_apply, val_main_v3_apply, head_eq] <;> rfl

/-- The infiltrated depth. -/
theorem depth_eq (x0 : Arr) (x1 x2 x3 x4 x6 x10 x11 x12 : Sc) :
    val_main_v16 (F := Ideal) x0 x1 x2 x3 x4 x6 x10 x11 x12 ix0
      = FloatOps.mulf (Outlet.infil (Outlet.lit 0x00000000#32 + ∑ j : S4000000.Idx, x0 j)
          (x1 ix0) (x2 ix0) (x3 ix0) (x4 ix0) (x6 ix0) (x10 ix0) (x11 ix0) (x12 ix0)) (x4 ix0) := by
  rw [val_main_v16_apply, infil_eq]

/-- The lateral inflow. -/
theorem lateral_eq (x0 : Arr) (x1 x2 x3 x4 x6 x10 x11 x12 : Sc) :
    val_main_v19 (F := Ideal) x0 x1 x2 x3 x4 x6 x10 x11 x12 ix0
      = Outlet.lateral (Outlet.infil (Outlet.lit 0x00000000#32 + ∑ j : S4000000.Idx, x0 j)
          (x1 ix0) (x2 ix0) (x3 ix0) (x4 ix0) (x6 ix0) (x10 ix0) (x11 ix0) (x12 ix0)) (x3 ix0) (x6 ix0) := by
  rw [val_main_v19_apply, val_main_v18_apply, val_main_cst_6_apply, val_main_v17_apply, infil_eq] <;> rfl

/-! ## The update at the outlet -/

/-- The updated wetted area at the outlet, over the two face discharges it reads. -/
theorem anext_last (x0 : Arr) (x1 x2 x3 x4 x6 x7 x8 x9 x10 x11 x12 : Sc) :
    val_main_v58 (F := Ideal) x0 x1 x2 x3 x4 x6 x7 x8 x9 x10 x11 x12 (ix1 nC)
      = FloatOps.maximumf
          (FloatOps.addf (x0 (ix1 nC)) (FloatOps.mulf (x4 ix0)
            (FloatOps.subf (val_main_v19 (F := Ideal) x0 x1 x2 x3 x4 x6 x10 x11 x12 ix0)
              (FloatOps.hostDivf
                (FloatOps.subf (val_main_v45 (F := Ideal) x0 x6 x7 x8 (ix1 nC)) (val_main_v45 (F := Ideal) x0 x6 x7 x8 (ix1 nB)))
                (x9 ix0)))))
          (Outlet.lit 0x00000000#32) := by
  rw [val_main_v58_apply, val_main_v57_apply, val_main_cst_14_apply, val_main_v56_apply, val_main_v55_apply,
    val_main_v54_apply, val_main_v53_apply, val_main_v52_apply, val_main_v51_apply, val_main_v50_apply,
    val_main_v49_apply, fin_last] <;> rfl

/-- The updated discharge is Manning's discharge of the updated area, at any node. -/
theorem qnext_apply (x0 : Arr) (x1 x2 x3 x4 x6 x7 x8 x9 x10 x11 x12 : Sc) (i : S4000000.Idx) :
    val_main_v66 (F := Ideal) x0 x1 x2 x3 x4 x6 x7 x8 x9 x10 x11 x12 i
      = Outlet.manning (val_main_v58 (F := Ideal) x0 x1 x2 x3 x4 x6 x7 x8 x9 x10 x11 x12 i) (x8 ix0) (x7 ix0) (x6 ix0) := by
  rw [val_main_v66_apply, val_main_v60_apply, val_main_v59_apply, val_main_cst_15_apply, val_main_v65_apply,
    val_main_v64_apply, val_main_v61_apply, val_main_v63_apply, val_main_v62_apply, val_main_cst_16_apply] <;> rfl

/-- The face discharge at the outlet, over the last two wetted areas. -/
theorem qface_last (x0 : Arr) (x6 x7 x8 : Sc) :
    val_main_v45 (F := Ideal) x0 x6 x7 x8 (ix1 nC)
      = Outlet.manning (Outlet.face (x0 (ix1 nC)) (FloatOps.subf (x0 (ix1 nC)) (x0 (ix1 nB)))
          (FloatOps.subf (x0 (ix1 nC)) (x0 (ix1 nC)))) (x8 ix0) (x7 ix0) (x6 ix0) := by
  rw [qface_apply, aface_apply, dAm_apply x0 (ix1 nC) (ix1 nB) (by show 3999998 + 1 = 3999999; rfl), dAp_last]

/-- The face discharge at the node before the outlet, over the last three wetted areas. -/
theorem qface_prev (x0 : Arr) (x6 x7 x8 : Sc) :
    val_main_v45 (F := Ideal) x0 x6 x7 x8 (ix1 nB)
      = Outlet.manning (Outlet.face (x0 (ix1 nB)) (FloatOps.subf (x0 (ix1 nB)) (x0 (ix1 nA)))
          (FloatOps.subf (x0 (ix1 nC)) (x0 (ix1 nB)))) (x8 ix0) (x7 ix0) (x6 ix0) := by
  rw [qface_apply, aface_apply, dAm_apply x0 (ix1 nB) (ix1 nA) (by show 3999997 + 1 = 3999998; rfl),
    dAp_apply x0 (ix1 nB) (ix1 nC) (by show 3999998 + 1 = 3999999; rfl)]

/-- The updated discharge at the outlet is the outlet discharge of the specification. -/
theorem outflow_eq (x0 : Arr) (x1 x2 x3 x4 x6 x7 x8 x9 x10 x11 x12 : Sc) :
    val_main_v66 (F := Ideal) x0 x1 x2 x3 x4 x6 x7 x8 x9 x10 x11 x12 (ix1 nC)
      = Outlet.outflow
          (Outlet.lateral (Outlet.infil (Outlet.lit 0x00000000#32 + ∑ j : S4000000.Idx, x0 j)
            (x1 ix0) (x2 ix0) (x3 ix0) (x4 ix0) (x6 ix0) (x10 ix0) (x11 ix0) (x12 ix0)) (x3 ix0) (x6 ix0))
          (x0 (ix1 nA)) (x0 (ix1 nB)) (x0 (ix1 nC)) (FloatOps.subf (x0 (ix1 nC)) (x0 (ix1 nC)))
          (x4 ix0) (x6 ix0) (x7 ix0) (x8 ix0) (x9 ix0) := by
  rw [qnext_apply, anext_last, qface_last, qface_prev, lateral_eq] <;> rfl

/-! ## The result -/

/-- The reference's result, entry by entry, is the report of the specification. -/
theorem result_eq (x0 : Arr) (x1 x2 x3 x4 x6 x7 x8 x9 x10 x11 x12 : Sc) (k : Fin 3) :
    val_main_v72 (F := Ideal) x0 x1 x2 x3 x4 x6 x7 x8 x9 x10 x11 x12 (ix1 k)
      = Outlet.report (Outlet.lit 0x00000000#32 + ∑ j : S4000000.Idx, x0 j)
          (x0 (ix1 ⟨3999997, by omega⟩)) (x0 (ix1 ⟨3999998, by omega⟩)) (x0 (ix1 ⟨3999999, by omega⟩))
          (FloatOps.subf (x0 (ix1 ⟨3999999, by omega⟩)) (x0 (ix1 ⟨3999999, by omega⟩)))
          (x1 ix0) (x2 ix0) (x3 ix0) (x4 ix0) (x6 ix0) (x7 ix0) (x8 ix0) (x9 ix0) (x10 ix0) (x11 ix0) (x12 ix0) k := by
  match k with
  | ⟨0, h0⟩ =>
    have e : val_main_v72 (F := Ideal) x0 x1 x2 x3 x4 x6 x7 x8 x9 x10 x11 x12 (ix1 ⟨0, h0⟩)
        = val_main_v69 (F := Ideal) x0 x1 x2 x3 x4 x6 x7 x8 x9 x10 x11 x12 (ix1 ⟨0, Nat.one_pos⟩) :=
      cat3_apply0 _ _ _ _ h0
    have e68 : val_main_v68 (F := Ideal) x0 x1 x2 x3 x4 x6 x7 x8 x9 x10 x11 x12 ix0
        = val_main_v67 (F := Ideal) x0 x1 x2 x3 x4 x6 x7 x8 x9 x10 x11 x12 (ix1 ⟨0, Nat.one_pos⟩) :=
      scalar_of_unit _ _ ix0
    have e67 : idx_main_v67 (ix1 (⟨0, Nat.one_pos⟩ : Fin 1)) = ix1 nC :=
      funext fun a => match a with | ⟨0, _⟩ => rfl
    rw [e, val_main_v69_apply, e68, val_main_v67_apply, e67, outflow_eq]
    rfl
  | ⟨1, h1⟩ =>
    have e : val_main_v72 (F := Ideal) x0 x1 x2 x3 x4 x6 x7 x8 x9 x10 x11 x12 (ix1 ⟨1, h1⟩)
        = val_main_v70 (F := Ideal) x0 x1 x2 x3 x4 x6 x10 x11 x12 (ix1 ⟨0, Nat.one_pos⟩) :=
      cat3_apply1 _ _ _ _ h1
    rw [e, val_main_v70_apply, infil_eq]
    rfl
  | ⟨2, h2⟩ =>
    have e : val_main_v72 (F := Ideal) x0 x1 x2 x3 x4 x6 x7 x8 x9 x10 x11 x12 (ix1 ⟨2, h2⟩)
        = val_main_v71 (F := Ideal) x0 x1 x2 x3 x4 x6 x10 x11 x12 (ix1 ⟨0, Nat.one_pos⟩) :=
      cat3_apply2 _ _ _ _ h2
    rw [e, val_main_v71_apply, depth_eq]
    rfl

end Cert.RefOutlet

end
-- ==== Proof.FiniteArea.lean ====
/-
  The precondition's first test says that every wetted area has modulus below the value of the word 0x7F800000,
  which is +∞.  An extended real of modulus below +∞ is neither infinity, so it is a real number; and a real
  number minus itself is the real zero, the value of the word 0x00000000.
-/
import proofs.«168983_j80857054314543_2_alg».proof.Pre_finite_inputs
import proofs.«168983_j80857054314543_2_alg».proof.Proof.Gen.Pre_finite_inputs
import Idealize.ShloMosaic.Lib.ReduceAll
import Idealize.ShloMosaic.Lib.ValueIdx
import Idealize.ShloMosaic.PureOps.Ideal.Laws

namespace Cert.FiniteArea

open Idealize.ShloMosaic Cert.Pre_finite_inputs

/-- The scalar shape has one index. -/
instance : Subsingleton S_.Idx := ⟨fun a b => funext fun d => d.elim0⟩

/-- Where a conjunction of two one-bit vectors is 1, its left operand is 1. -/
theorem andi_left {s : Shape} (a b : IVec s 1) (j : s.Idx) (h : andi a b j = 1#1) : a j = 1#1 :=
  (IntOp.andi_eq_one.1 h).1

/-- An extended real whose modulus max x (-x) is below the value of the word 0x7F800000 is a real number:
    that value is +∞, and at either infinity the modulus is +∞ itself. -/
theorem real_of_abs_lt (x : Ideal .f32)
    (h : FloatOps.cmpf (F := Ideal) .olt (FloatOps.hostAbsf (F := Ideal) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  clear h
  induction x using EReal.rec with
  | bot => simp [Ideal.cmp] at h'
  | coe r => exact ⟨r, rfl⟩
  | top => simp [Ideal.cmp] at h'

/-- Under the precondition every wetted area is a real number.  The precondition is a conjunction of fourteen tests,
    nested to the left; its innermost left operand is the test of the areas, a conjunction over all their indices. -/
theorem area_real [Cert.Pre_finite_inputs.Facts] (x0 : FVec Ideal S4000000 .f32)
    (x1 x2 x3 x4 x5 x6 x7 x8 x9 x10 x11 x12 x13 : FVec Ideal S_ .f32)
    (h : Cert.Pre_finite_inputs.fn (F := Ideal) x0 x1 x2 x3 x4 x5 x6 x7 x8 x9 x10 x11 x12 x13 = fun _ => 1#1)
    (i : Cert.Pre_finite_inputs.S4000000.Idx) : ∃ r : ℝ, x0 i = (r : EReal) := by
  have e := congrFun h ValueIdx.ix0
  dsimp only [fn, fn_part1, fn_part2, fn_part3] at e
  have e3 := andi_left _ _ _ (andi_left _ _ _ (andi_left _ _ _ (andi_left _ _ _ (andi_left _ _ _
    (andi_left _ _ _ (andi_left _ _ _ (andi_left _ _ _ (andi_left _ _ _ (andi_left _ _ _
    (andi_left _ _ _ (andi_left _ _ _ (andi_left _ _ _ e))))))))))))
  exact real_of_abs_lt (x0 i) (Host.reduce_andi_all _ _ _ _ _ e3 i)

/-- So a wetted area minus itself is the real zero. -/
theorem sub_self_area [Cert.Pre_finite_inputs.Facts] (x0 : FVec Ideal S4000000 .f32)
    (x1 x2 x3 x4 x5 x6 x7 x8 x9 x10 x11 x12 x13 : FVec Ideal S_ .f32)
    (h : Cert.Pre_finite_inputs.fn (F := Ideal) x0 x1 x2 x3 x4 x5 x6 x7 x8 x9 x10 x11 x12 x13 = fun _ => 1#1)
    (i : Cert.Pre_finite_inputs.S4000000.Idx) :
    FloatOps.subf (F := Ideal) (x0 i) (x0 i) = FloatOps.ofBits (F := Ideal) .f32 0x00000000#32 := by
  obtain ⟨r, hr⟩ := area_real x0 x1 x2 x3 x4 x5 x6 x7 x8 x9 x10 x11 x12 x13 h i
  show (x0 i : EReal) - x0 i = Ideal.ofBits .f32 0x00000000#32
  rw [Ideal.ofBits_zero_f32, hr, ← EReal.coe_sub, sub_self, EReal.coe_zero]

end Cert.FiniteArea
-- ==== Proof.lean ====
/-
  One explicit step of a kinematic-wave channel with Green–Ampt infiltration reports three numbers: the outlet
  discharge, the infiltration rate and the infiltrated depth.  The reference evaluates the whole MUSCL update on the
  four-million-entry area array and reads the last node; the kernel program sums the area array in a two-core tiled
  reduction (for the mean depth) and evaluates the update at the outlet node alone, from the last three areas.

  At the ideal values both are the same function of the inputs (Proof/OutletSpec.lean):
    * the sum: the kernel's two per-core totals, each a sum over lanes, steps and rows of column sums accumulated
      from zero, add up to the reference's zero plus the sum over all entries — a regrouping of a finite sum of extended
      reals (commutativity and associativity only);
    * the outlet node: the update is pointwise in a three-point stencil, so the reference's last entry depends on the
      last three areas only; its downstream difference at the outlet is the last area minus itself, which is zero
      because the inputs are finite (the one place the precondition is used), where the kernel program has a literal
      zero.
  The three frames: the reference's is its run with the result dropped; each kernel program's is the frame run of its
  one region (the body run at a symbolic grid point in its two cases, the scratch accumulator carried between
  points) continued by the later host lines, none of which writes an argument.  The ideal pass rewrote nothing, so
  the idealization claim is trivial.
-/
import proofs.«168983_j80857054314543_2_alg».proof.Defs
import proofs.«168983_j80857054314543_2_alg».proof.Proof.Gen.Kernel
import proofs.«168983_j80857054314543_2_alg».proof.Proof.Gen.Kernel.Skeleton
import proofs.«168983_j80857054314543_2_alg».proof.Proof.Gen.Kernel.Launch
import proofs.«168983_j80857054314543_2_alg».proof.Proof.Gen.Kernel.Points
import proofs.«168983_j80857054314543_2_alg».proof.Proof.Gen.KernelIdeal
import proofs.«168983_j80857054314543_2_alg».proof.Proof.Gen.KernelIdeal.Skeleton
import proofs.«168983_j80857054314543_2_alg».proof.Proof.Gen.KernelIdeal.Launch
import proofs.«168983_j80857054314543_2_alg».proof.Proof.Gen.KernelIdeal.Points
import proofs.«168983_j80857054314543_2_alg».proof.Proof.Gen.ReferenceIdeal
import proofs.«168983_j80857054314543_2_alg».proof.Proof.Gen.Pre_finite_inputs
import proofs.«168983_j80857054314543_2_alg».proof.Proof.Gen.ReferenceIdeal.Run
import proofs.«168983_j80857054314543_2_alg».proof.Proof.Gen.ReferenceIdeal.Read
import proofs.«168983_j80857054314543_2_alg».proof.Proof.SumDataBits
import proofs.«168983_j80857054314543_2_alg».proof.Proof.SumResult
import proofs.«168983_j80857054314543_2_alg».proof.Proof.SumLater
import proofs.«168983_j80857054314543_2_alg».proof.Proof.RefOutlet
import proofs.«168983_j80857054314543_2_alg».proof.Proof.FiniteArea
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : @Cert.frame_Kernel Cert.Kernel.Gen.facts Cert.Pre_finite_inputs.Gen.facts :=
  fun m ρ _ => Cert.Kernel.Sum.frame m ρ

/-- So does its idealization. -/
theorem frame_ki : @Cert.frame_KernelIdeal Cert.KernelIdeal.Gen.facts Cert.Pre_finite_inputs.Gen.facts :=
  fun m ρ _ => Cert.KernelIdeal.Sum.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The zero word denotes zero: adding it on the left changes nothing. -/
theorem zero_lit_add (x : EReal) : Cert.Outlet.lit 0x00000000#32 + x = x := by
  show Ideal.ofBits .f32 0x00000000#32 + x = x
  rw [Ideal.ofBits_zero_f32, zero_add]

/-- The reference's results, from memories agreeing with the kernel program's on the arguments and under the
    precondition, are the kernel program's: the same report, the reference's zero plus the sum being the sum, and its
    outlet difference (the last area minus itself) being zero for a finite area. -/
theorem results_agree
    (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) = fun _ => 1#1) :
    Cert.ReferenceIdeal.Read.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      = Cert.KernelIdeal.Sum.resultK m c := by
  funext i
  obtain ⟨k, rfl⟩ : ∃ k : Fin 3, i = ix1 k := ⟨i 0, eq_ix1 i⟩
  refine (Cert.RefOutlet.result_eq _ _ _ _ _ _ _ _ _ _ _ _ k).trans ?_
  rw [Cert.FiniteArea.sub_self_area _ _ _ _ _ _ _ _ _ _ _ _ _ _ hpre]
  rw [zero_lit_add]
  rfl

/-- At the ideal values the two programs, from memories agreeing on the arguments, end with the same three results. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Sum.resultK m c, Cert.KernelIdeal.Sum.result_run_of m ρ Cert.SumLater.later_value, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq]
  obtain ⟨h0, h1, h2, h3, h4, h5, h6, h7, h8, h9, h10, h11, h12, h13⟩ := hagree c
  rw [h0, h1, h2, h3, h4, h6, h7, h8, h9, h10, h11, h12]
  exact results_agree m c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
